-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x200 : Shape := ⟨2, ![16384, 200]⟩
abbrev S1000x128 : Shape := ⟨2, ![1000, 128]⟩
abbrev S_ : Shape := ⟨0, ![]⟩

class Facts : Prop where
  bcast_S_S1000x128 : S_.BroadcastsInDim S1000x128 (![] : Fin 0 → Fin S1000x128.rank)
  reducesTo_S1000x128_S_d0_1 : S1000x128.ReducesTo [0, 1] S_
  h_S_ : 0 < S_.numel
  bcast_S_S16384x200 : S_.BroadcastsInDim S16384x200 (![] : Fin 0 → Fin S16384x200.rank)
  reducesTo_S16384x200_S_d0_1 : S16384x200.ReducesTo [0, 1] S_

variable [Facts]

def fn {F : FTy → Type} [FloatOps F] (main_arg0 : IVec S16384x200 32) (main_arg1 : FVec F S1000x128 .f32) : IVec S_ 1 :=
  let main_v0 : FVec F S1000x128 .f32 := Host.absf main_arg1
  let main_cst : FVec F S_ .f32 := constant S_ .f32 0x7F800000#32
  let main_v1 : FVec F S1000x128 .f32 := broadcastInDim S1000x128 ![] bcast_S_S1000x128 main_cst
  let main_v2 : IVec S1000x128 1 := cmpf .olt main_v0 main_v1
  let main_c : IVec S_ 1 := constantI S_ 1 1#1
  let main_v3 : IVec S_ 1 := (fun x v => Host.reduce IntOp.andi x v reducesTo_S1000x128_S_d0_1 h_S_) main_v2 main_c
  let main_c_0 : IVec S_ 32 := constantI S_ 32 0#32
  let main_v4 : IVec S16384x200 32 := broadcastInDim S16384x200 ![] bcast_S_S16384x200 main_c_0
  let main_v5 : IVec S16384x200 1 := cmpi .sge main_arg0 main_v4
  let main_c_1 : IVec S_ 32 := constantI S_ 32 999#32
  let main_v6 : IVec S16384x200 32 := broadcastInDim S16384x200 ![] bcast_S_S16384x200 main_c_1
  let main_v7 : IVec S16384x200 1 := cmpi .sle main_arg0 main_v6
  let main_v8 : IVec S16384x200 1 := andi main_v5 main_v7
  let main_c_2 : IVec S_ 1 := constantI S_ 1 1#1
  let main_v9 : IVec S_ 1 := (fun x v => Host.reduce IntOp.andi x v reducesTo_S16384x200_S_d0_1 h_S_) main_v8 main_c_2
  let main_v10 : IVec S_ 1 := andi main_v3 main_v9
  main_v10
-- ==== Kernel.lean ====
abbrev S16384x200 : Shape := ⟨2, ![16384, 200]⟩
abbrev S1000x128 : Shape := ⟨2, ![1000, 128]⟩
abbrev S3276800 : Shape := ⟨1, ![3276800]⟩
abbrev S3276800x128 : Shape := ⟨2, ![3276800, 128]⟩
abbrev S128 : Shape := ⟨1, ![128]⟩
abbrev S128x128 : Shape := ⟨2, ![128, 128]⟩
abbrev S_ : Shape := ⟨0, ![]⟩
abbrev S16384x200x128 : Shape := ⟨3, ![16384, 200, 128]⟩

abbrev nBuf : Table → Nat
  | .hbm => 5
  | .local .scVector .vmem => 2
  | _ => 0

abbrev bufTy : (tb : Table) → Fin (nBuf tb) → BufTy
  | .hbm, ⟨0, _⟩ => ⟨S16384x200, .i32⟩
  | .hbm, ⟨1, _⟩ => ⟨S1000x128, .f32⟩
  | .hbm, ⟨2, _⟩ => ⟨S3276800, .i32⟩
  | .hbm, ⟨3, _⟩ => ⟨S3276800x128, .f32⟩
  | .hbm, ⟨4, _⟩ => ⟨S16384x200x128, .f32⟩
  | .local .scVector .vmem, ⟨0, _⟩ => ⟨S128, .i32⟩
  | .local .scVector .vmem, ⟨1, _⟩ => ⟨S128x128, .f32⟩
  | _, _ => ⟨S16384x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c800_i32 : BitVec 32 := 800#32
  let v3 : BitVec 32 := Scalar.addi c0_i32_0 c800_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v2 : BitVec 32 := Scalar.muli v1 c102400_i32
  let c0_i32_0 : BitVec 32 := 0#32
  let c1_i32 : BitVec 32 := 1#32
  let arg8 : BitVec 32 := Scf.iv c0_i32_0 c1_i32 k0_t1
  let c128_i32 : BitVec 32 := 128#32
  let v4 : BitVec 32 := Scalar.muli arg8 c128_i32
  let v5 : BitVec 32 := Scalar.addi v2 v4
  ![v5.toNat]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v2 : BitVec 32 := Scalar.muli v1 c102400_i32
  let c0_i32_0 : BitVec 32 := 0#32
  let c1_i32 : BitVec 32 := 1#32
  let arg8 : BitVec 32 := Scf.iv c0_i32_0 c1_i32 k0_t1
  let c128_i32 : BitVec 32 := 128#32
  let v4 : BitVec 32 := Scalar.muli arg8 c128_i32
  let v5 : BitVec 32 := Scalar.addi v2 v4
  let c0_i32_6_r1 : BitVec 32 := 0#32
  ![v5.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384x200_S3276800 : S16384x200.ShapeCasts S3276800
  inb_S1000x128_S1000x128_0_0 : ∀ a, (![0, 0] : Fin 2 → Nat) a + S1000x128.size a ≤ S1000x128.size a
  gathers_S1000x128_S128x128 : S1000x128.Gathers 0 S128x128
  shapeCasts_S3276800x128_S16384x200x128 : S3276800x128.ShapeCasts S16384x200x128
  hcc0_scratch2 : 0 + S_.numel ≤ 3
  hcc0_scoped0 : 1 + S_.numel ≤ 3
  hcc0_scoped1 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ (i : grid0.Coords) (k0_t1 : Fin k0_t1_loop.trips), ∀ a, (k0_off1 i k0_t1) a + S128.size a ≤ S3276800.size a
  k0_off2_inb : ∀ (i : grid0.Coords) (k0_t1 : Fin k0_t1_loop.trips), ∀ a, (k0_off2 i k0_t1) a + S128x128.size a ≤ S3276800x128.size a

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1

class Facts : Prop extends Facts₀ where

variable [Facts]
-- ==== ReferenceIdeal.lean ====
abbrev S16384x200 : Shape := ⟨2, ![16384, 200]⟩
abbrev S1000x128 : Shape := ⟨2, ![1000, 128]⟩
abbrev S_ : Shape := ⟨0, ![]⟩
abbrev S16384x200x1 : Shape := ⟨3, ![16384, 200, 1]⟩
abbrev S1 : Shape := ⟨1, ![1]⟩
abbrev S1x1x1 : Shape := ⟨3, ![1, 1, 1]⟩
abbrev S16384x200x128 : Shape := ⟨3, ![16384, 200, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384x200, .i32⟩
  | .hbm, ⟨1, _⟩ => ⟨S1000x128, .f32⟩
  | .hbm, ⟨2, _⟩ => ⟨S_, .i32⟩
  | .hbm, ⟨3, _⟩ => ⟨S16384x200, .i32⟩
  | .hbm, ⟨4, _⟩ => ⟨S16384x200, .i1⟩
  | .hbm, ⟨5, _⟩ => ⟨S_, .i32⟩
  | .hbm, ⟨6, _⟩ => ⟨S16384x200, .i32⟩
  | .hbm, ⟨7, _⟩ => ⟨S16384x200, .i32⟩
  | .hbm, ⟨8, _⟩ => ⟨S16384x200, .i32⟩
  | .hbm, ⟨9, _⟩ => ⟨S16384x200x1, .i32⟩
  | .hbm, ⟨10, _⟩ => ⟨S1, .i32⟩
  | .hbm, ⟨11, _⟩ => ⟨S_, .i32⟩
  | .hbm, ⟨12, _⟩ => ⟨S16384x200x1, .i32⟩
  | .hbm, ⟨13, _⟩ => ⟨S16384x200x1, .i1⟩
  | .hbm, ⟨14, _⟩ => ⟨S1x1x1, .i32⟩
  | .hbm, ⟨15, _⟩ => ⟨S16384x200x1, .i32⟩
  | .hbm, ⟨16, _⟩ => ⟨S16384x200x1, .i1⟩
  | .hbm, ⟨17, _⟩ => ⟨S16384x200x1, .i1⟩
  | .hbm, ⟨18, _⟩ => ⟨S_, .i1⟩
  | .hbm, ⟨19, _⟩ => ⟨S16384x200, .i1⟩
  | .hbm, ⟨20, _⟩ => ⟨S16384x200x128, .f32⟩
  | .hbm, ⟨21, _⟩ => ⟨S16384x200x128, .i1⟩
  | .hbm, ⟨22, _⟩ => ⟨S_, .f32⟩
  | .hbm, ⟨23, _⟩ => ⟨S16384x200x128, .f32⟩
  | .hbm, ⟨24, _⟩ => ⟨S16384x200x128, .f32⟩
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384x200 : S_.BroadcastsInDim S16384x200 (![] : Fin 0 → Fin S16384x200.rank)
  bcast_S16384x200_S16384x200x1_0_1 : S16384x200.BroadcastsInDim S16384x200x1 (![0, 1] : Fin 2 → Fin S16384x200x1.rank)
  bcast_S_S16384x200x1 : S_.BroadcastsInDim S16384x200x1 (![] : Fin 0 → Fin S16384x200x1.rank)
  bcast_S1_S1x1x1_2 : S1.BroadcastsInDim S1x1x1 (![2] : Fin 1 → Fin S1x1x1.rank)
  bcast_S1x1x1_S16384x200x1_0_1_2 : S1x1x1.BroadcastsInDim S16384x200x1 (![0, 1, 2] : Fin 3 → Fin S16384x200x1.rank)
  reducesTo_S16384x200x1_S16384x200_d2 : S16384x200x1.ReducesTo [2] S16384x200
  h_S_ : 0 < S_.numel
  bcast_S16384x200_S16384x200x128_0_1 : S16384x200.BroadcastsInDim S16384x200x128 (![0, 1] : Fin 2 → Fin S16384x200x128.rank)
  bcast_S_S16384x200x128 : S_.BroadcastsInDim S16384x200x128 (![] : Fin 0 → Fin S16384x200x128.rank)
  gather_S1000x128_S16384x200x1_S16384x200x128_2_0_n_n_0_2_1128_wf : GatherDims.WF S1000x128 S16384x200x1 S16384x200x128 [2] [0] [] [0] [] 2 ![1, 128]

variable [Facts₀]

def gather_S1000x128_S16384x200x1_S16384x200x128_2_0_n_n_0_2_1128 : GatherDims S1000x128 S16384x200x1 S16384x200x128 where
  offsetDims := [2]
  collapsedSliceDims := [0]
  operandBatchingDims := []
  startIndicesBatchingDims := []
  startIndexMap := [0]
  indexVectorDim := 2
  sliceSizes := ![1, 128]
  wf := gather_S1000x128_S16384x200x1_S16384x200x128_2_0_n_n_0_2_1128_wf

class Facts : Prop extends Facts₀ where

variable [Facts]
-- ==== Proof.Spec.lean ====
/-
  The lookup as one function of the two argument arrays.  Entry (r, c, e) of the result is entry e of the table's row
  numbered idx[r, c], where the index word is read as a signed integer and clamped to the table's rows [0, 999].  On
  words that already lie in [0, 999] the clamp does nothing and the row number is the word itself.
-/
import Idealize.ShloMosaic.Lib.ValueIdx

namespace Cert.Lookup

open Idealize.ShloMosaic Idealize.ShloMosaic.ValueIdx

/-- The table row an index word names: the word read signed and clamped into `[0, 999]`. -/
def rowOf (w : BitVec 32) : Fin 1000 := ⟨min w.toInt.toNat 999, by omega⟩

/-- A word in `[0, 999]` names the row of its own unsigned value. -/
theorem rowOf_val_of_range {w : BitVec 32} (h0 : 0 ≤ w.toInt) (h1 : w.toInt ≤ 999) : (rowOf w).val = w.toNat := by
  have hw : w.toInt = (w.toNat : Int) := by
    rcases BitVec.toInt_eq_toNat_cond w with h
    rw [h] at h0 ⊢
    split at h0 <;> rename_i hlt
    · simp [hlt]
    · exfalso; have := w.isLt; omega
  show min w.toInt.toNat 999 = w.toNat
  rw [hw] at h1 ⊢
  simp only [Int.toNat_natCast]
  omega

/-- A word in `[0, 999]` has unsigned value below 1000. -/
theorem toNat_lt_of_range {w : BitVec 32} (h0 : 0 ≤ w.toInt) (h1 : w.toInt ≤ 999) : w.toNat < 1000 := by
  have := rowOf_val_of_range h0 h1
  have := (rowOf w).isLt
  omega

theorem idx3_lt0 (y : (⟨3, ![16384, 200, 128]⟩ : Shape).Idx) : (y 0).val < 16384 := (y 0).isLt
theorem idx3_lt1 (y : (⟨3, ![16384, 200, 128]⟩ : Shape).Idx) : (y 1).val < 200 := (y 1).isLt
theorem idx3_lt2 (y : (⟨3, ![16384, 200, 128]⟩ : Shape).Idx) : (y 2).val < 128 := (y 2).isLt

/-- The looked-up rows: result entry `(r, c, e)` is entry `e` of the table's row `rowOf idx[r, c]`. -/
def rowsOf {α : Type} (idx : IVec ⟨2, ![16384, 200]⟩ 32) (tbl : (⟨2, ![1000, 128]⟩ : Shape).Idx → α) :
    (⟨3, ![16384, 200, 128]⟩ : Shape).Idx → α :=
  fun y => tbl (ix2 (n0 := 1000) (n1 := 128)
    (rowOf (idx (ix2 (n0 := 16384) (n1 := 200) ⟨(y 0).val, idx3_lt0 y⟩ ⟨(y 1).val, idx3_lt1 y⟩)))
    ⟨(y 2).val, idx3_lt2 y⟩)

end Cert.Lookup
-- ==== Proof.FlatSpec.lean ====
/-
  The lookup over the flattened index list.  The kernel sees the [16384, 200] index array as one list of 3276800
  words and writes a [3276800, 128] array: row n of it is the table's row numbered by word n of the list.
-/
import Idealize.ShloMosaic.Lib.ValueIdx
import proofs.«217804_g22402549416331_cont_8to1_114_2_alg».proof.Proof.Spec

namespace Cert.Lookup

open Idealize.ShloMosaic Idealize.ShloMosaic.ValueIdx

theorem flat_lt0 (y : (⟨2, ![3276800, 128]⟩ : Shape).Idx) : (y 0).val < 3276800 := (y 0).isLt
theorem flat_lt1 (y : (⟨2, ![3276800, 128]⟩ : Shape).Idx) : (y 1).val < 128 := (y 1).isLt

/-- Row `n` of the flat result is the table's row `rowOf list[n]`. -/
def flatRows {α : Type} (fi : (⟨1, ![3276800]⟩ : Shape).Idx → BitVec 32) (ft : (⟨2, ![1000, 128]⟩ : Shape).Idx → α) :
    (⟨2, ![3276800, 128]⟩ : Shape).Idx → α :=
  fun y => ft (ix2 (n0 := 1000) (n1 := 128) (rowOf (fi (ix1 (n := 3276800) ⟨(y 0).val, flat_lt0 y⟩))) ⟨(y 1).val, flat_lt1 y⟩)

end Cert.Lookup
-- ==== Proof.LibWholePiece.lean ====
/-
  One write of a whole array through a view.  If the list of writes through a view is a single piece that covers the
  view's whole shape, then the element the view places at index x holds the piece's payload at x, whatever the buffer
  held before.
-/
import Idealize.ShloMosaic.Lib.Writes

namespace Cert.WholePiece

open Idealize.ShloMosaic

variable {sig : RefSig} {κ : Kind} {sp : Space} {s : Shape} {e : EltTy} {Val : EltTy → Type}

/-- After the single whole-shape write `w` through the view `v`, the buffer's element at `v.emb x` is `w x`. -/
theorem writes_whole_emb (v : View sig κ sp s e) (f : v.ty.Contents Val) (w : (Rect.whole s).shape.Idx → Val e) (x : s.Idx) :
    v.writes Val f [⟨Rect.whole s, w⟩] (v.emb x) = cast (congrArg Val v.elt_eq.symm) (w x) := by
  rw [View.writes_singleton]
  have h := View.write_emb (v := v.slice (Rect.whole s)) f w Finset.univ x
  rw [if_pos (Finset.mem_univ _), View.emb_slice, Function.Embedding.trans_apply, Rect.emb_whole_apply] at h
  exact h

end Cert.WholePiece
-- ==== Proof.BitsBody.lean ====
/-
  One vector subcore's task of the lookup kernel, at the program as printed, for any float instance.
  Subcore (c, s) is worker w = 2 s + c and owns rows [102400 w, 102400 (w + 1)) of the flat result.  In trip k it copies
  words [102400 w + 128 k, 102400 w + 128 k + 128) of the index list into its list scratch, gathers the table rows those
  words name into its row scratch, and copies the row scratch out to the same 128 rows of the flat result.  Every copy is
  waited for before the next is issued.  The loop's invariant: the worker's rows below 128 k hold the looked-up rows, the
  rows from 128 k on hold what they held at the start.
-/
import Idealize.ShloMosaic.Lib.SparseCore.Launch
import Idealize.ShloMosaic.Lib.StableHlo.Run
import Idealize.ShloMosaic.Lib.Pipeline.Kit
import Idealize.ShloMosaic.Lib.Tactic
import proofs.«217804_g22402549416331_cont_8to1_114_2_alg».proof.Proof.Gen.Kernel
import proofs.«217804_g22402549416331_cont_8to1_114_2_alg».proof.Proof.Gen.Kernel.Skeleton
import proofs.«217804_g22402549416331_cont_8to1_114_2_alg».proof.Proof.FlatSpec
import proofs.«217804_g22402549416331_cont_8to1_114_2_alg».proof.Proof.LibWholePiece

noncomputable section

namespace Cert.Proof.BitsLookup

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The flat index list, the table and the flat result, as locations of device `d`. -/
abbrev iLoc (d : Dev nD) : Loc nD τ sig := (SparseCore.T d).loc main_v0
abbrev tLoc (d : Dev nD) : Loc nD τ sig := (SparseCore.T d).loc main_arg1
abbrev oLoc (d : Dev nD) : Loc nD τ sig := (SparseCore.T d).loc main_v1

abbrev iV : Memref sig .scVector .hbm S3276800 .i32 := Memref.whole main_v0_scv
abbrev tV : Memref sig .scVector .hbm S1000x128 .f32 := Memref.whole main_arg1_scv
abbrev oV : Memref sig .scVector .hbm S3276800x128 .f32 := Memref.whole main_v1_scv
/-- A subcore's scratch: the fetched words, the gathered rows. -/
abbrev sI : Memref sig .scVector .vmem S128 .i32 := Memref.whole cc0_scratch0
abbrev sR : Memref sig .scVector .vmem S128x128 .f32 := Memref.whole cc0_scratch1

/-- The rows `[lo, hi)` of the flat result, all their columns. -/
def outRows (lo hi : ℕ) : Finset S3276800x128.Idx := Finset.univ.filter fun y => lo ≤ (y 0).val ∧ (y 0).val < hi

theorem mem_outRows {lo hi : ℕ} {y : S3276800x128.Idx} : y ∈ outRows lo hi ↔ lo ≤ (y 0).val ∧ (y 0).val < hi := by
  simp [outRows]

theorem outRows_union {a b c : ℕ} (hab : a ≤ b) (hbc : b ≤ c) : outRows a c = outRows a b ∪ outRows b c := by
  ext y; simp only [Finset.mem_union, mem_outRows]; omega

theorem outRows_disjoint {a b c : ℕ} : Disjoint (outRows a b) (outRows b c) :=
  Finset.disjoint_left.mpr fun y h1 h2 => by rw [mem_outRows] at h1 h2; omega

variable [FloatOps F]

section Tile

variable (d : Dev nD) (L : grid0.Coords)

abbrev cV (L : grid0.Coords) : Fin τ.nSC := (L 0).castLE hcore0
abbrev jV (L : grid0.Coords) : Fin τ.nSub := (L 1).castLE hsub0

/-- The first flat row of worker `2 s + c`. -/
def base (L : grid0.Coords) : ℕ := 204800 * (L 1).val + 102400 * (L 0).val

/-- Trip `k`'s 128 words of the list and 128 rows of the result, as the program slices them. -/
abbrev idxChunk (L : grid0.Coords) (k : Fin k0_t1_loop.trips) : Memref sig .scVector .hbm S128 .i32 :=
  (iV : Memref sig .scVector .hbm S3276800 .i32).slice (Rect.unit (s := S3276800) (k0_off1 L k) S128.size (k0_off1_inb L k)) (fun _ => rfl)
abbrev outChunk (L : grid0.Coords) (k : Fin k0_t1_loop.trips) : Memref sig .scVector .hbm S128x128 .f32 :=
  (oV : Memref sig .scVector .hbm S3276800x128 .f32).slice (Rect.unit (s := S3276800x128) (k0_off2 L k) S128x128.size (k0_off2_inb L k)) (fun _ => rfl)

omit [FloatOps F] in
theorem set_outChunk (k : Fin k0_t1_loop.trips) : (outChunk L k).view.set = outRows (base L + 128 * k.val) (base L + 128 * k.val + 128) := by
  show ((View.whole (main_v1_scv : Ref sig .scVector)).slice (Rect.unit (s := S3276800x128) (k0_off2 L k) S128x128.size (k0_off2_inb L k))).set = _
  rw [View.set_slice_whole]
  ext y
  rw [Rect.mem_set_unit, mem_outRows, k0_off2_eq]
  constructor
  · intro h
    have h0 := h 0
    simp only [base] at h0 ⊢
    simpa using h0
  · intro h a
    match a with
    | ⟨0, _⟩ => simp only [base] at h; simpa using h
    | ⟨1, _⟩ =>
      have h1 : (y 1).val < 128 := (y 1).isLt
      exact ⟨Nat.zero_le _, by show (y 1).val < 0 + 128; omega⟩

/-- The subcore's thread. -/
abbrev thr : Thread nD τ := V d (cV L) (jV L)

abbrev cIcell : GSem nD τ sig := (thr d L, .dma cc0_scoped0.sem)
abbrev cGcell : GSem nD τ sig := (thr d L, .dma cc0_scratch2.sem)
abbrev cOcell : GSem nD τ sig := (thr d L, .dma cc0_scoped1.sem)

omit [FloatOps F] in
theorem ownSems0_V :
    (ownSems0 (thr d L) : sProp 𝕄)
      = iprop(semVal (cGcell d L) 0 ∗ semVal (cIcell d L) 0 ∗ semVal (cOcell d L) 0
          ∗ bigSep ((((ownCells (thr d L)).erase (cGcell d L)).erase (cIcell d L)).erase (cOcell d L)) fun g => semVal g 0) := by
  unfold SparseCore.Cfg.ownSems0
  rw [SparseCore.bigSep_erase' ((mem_ownCells (g := cGcell d L)).mpr ⟨rfl, by
      show (SemLoc.dma cc0_scratch2.sem : SemLoc sig).isScoped .scVector = true; decide⟩),
    SparseCore.bigSep_erase' (Finset.mem_erase.mpr ⟨by simp [cGcell, cIcell]; decide, (mem_ownCells (g := cIcell d L)).mpr ⟨rfl, by
      show (SemLoc.dma cc0_scoped0.sem : SemLoc sig).isScoped .scVector = true; decide⟩⟩),
    SparseCore.bigSep_erase' (Finset.mem_erase.mpr ⟨by simp [cIcell, cOcell]; decide, Finset.mem_erase.mpr ⟨by simp [cGcell, cOcell]; decide,
      (mem_ownCells (g := cOcell d L)).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- The rows still to do before trip `k` are trip `k`'s 128 rows, as the program slices them, and the rest. -/
theorem todo_split (fo : Buf (Elt F) (oLoc d)) (k : Fin k0_t1_loop.trips) (hk : k.val < 800) :
    (oLoc d ↦[outRows (base L + 128 * k.val) (base L + 102400)]{fullShare} fo : sProp 𝕄)
      ⊣⊢ iprop(((outChunk L k).view.loc (thr d L) ↦[(outChunk L k).view.set]{fullShare} fo)
          ∗ oLoc d ↦[outRows (base L + 128 * (k.val + 1)) (base L + 102400)]{fullShare} fo) := by
  rw [set_outChunk, outRows_union (a := base L + 128 * k.val) (b := base L + 128 * k.val + 128) (c := base L + 102400) (by omega) (by omega),
    show base L + 128 * (k.val + 1) = base L + 128 * k.val + 128 by omega]
  exact pointsTo_union outRows_disjoint

omit [FloatOps F] in
/-- The rows done before trip `k` and trip `k`'s 128 rows are the rows done before trip `k + 1`. -/
theorem done_join (g : Buf (Elt F) (oLoc d)) (k : ℕ) :
    (oLoc d ↦[outRows (base L) (base L + 128 * (k + 1))]{fullShare} g : sProp 𝕄)
      ⊣⊢ iprop((oLoc d ↦[outRows (base L) (base L + 128 * k)]{fullShare} g)
          ∗ oLoc d ↦[outRows (base L + 128 * k) (base L + 128 * k + 128)]{fullShare} g) := by
  rw [outRows_union (a := base L) (b := base L + 128 * k) (c := base L + 128 * (k + 1)) (by omega) (by omega),
    show base L + 128 * (k + 1) = base L + 128 * k + 128 by omega]
  exact pointsTo_union outRows_disjoint

omit [FloatOps F] in
/-- Trip `k`'s rows, once they hold the looked-up rows on their own elements, are a piece of the result at the one
    whole-array function. -/
theorem chunk_done (fi : Buf (Elt F) (iLoc d)) (ft : Buf (Elt F) (tLoc d)) (k : Fin k0_t1_loop.trips) (X : Buf (Elt F) (oLoc d))
    (hX : ∀ y ∈ (outChunk L k).view.set, X y = (Cert.Lookup.flatRows fi ft : Buf (Elt F) (oLoc d)) y) :
    ((outChunk L k).view.loc (thr d L) ↦[(outChunk L k).view.set]{fullShare} X : sProp 𝕄)
      ⊢ oLoc d ↦[outRows (base L + 128 * k.val) (base L + 128 * k.val + 128)]{fullShare} (Cert.Lookup.flatRows fi ft : Buf (Elt F) (oLoc d)) := by
  rw [← set_outChunk]
  exact Entails.of_eq (pointsTo_congr hX)

/-- What trip `k` leaves in its 128 rows of the flat result.  The copy-out's payload is the row scratch, which the gather
    filled with the table rows named by the list scratch, which the copy-in filled with words
    [base + 128 k, base + 128 k + 128) of the index list: so row base + 128 k + r of the result holds the table's row
    numbered by word base + 128 k + r, the word's unsigned value being its row number because the word lies in [0, 999]. -/
theorem chunk_value (fi : Buf (Elt F) (iLoc d)) (ft : Buf (Elt F) (tLoc d)) (fo : Buf (Elt F) (oLoc d))
    (hfi : ∀ j, 0 ≤ (fi j).toInt ∧ (fi j).toInt ≤ 999) (k : Fin k0_t1_loop.trips)
    (fs : Buf (Elt F) ((sI : Memref sig .scVector .vmem S128 .i32).view.loc (thr d L)))
    (fr : Buf (Elt F) ((sR : Memref sig .scVector .vmem S128x128 .f32).view.loc (thr d L)))
    (hn : S128.numel = S128x128.size gathers_S1000x128_S128x128.axis')
    (hin : ∀ x, ((sI : Memref sig .scVector .vmem S128 .i32).view.read (Elt F)
          ((sI : Memref sig .scVector .vmem S128 .i32).view.write (Elt F) fs
            (ReadAs.same.apply ((idxChunk L k).view.read (Elt F) fi)) Finset.univ) x).toNat
          < S1000x128.size gathers_S1000x128_S128x128.axis)
    (hsl : ∀ a, (Rect.unit (s := S1000x128) ![0, 0] S1000x128.size inb_S1000x128_S1000x128_0_0).stride a = 1) :
    ∀ y ∈ (outChunk L k).view.set,
      (outChunk L k).view.writes (Elt F) fo
        [⟨Rect.whole S128x128,
            ReadAs.same.apply
              (View.read (Elt F) (sR : Memref sig .scVector .vmem S128x128 .f32).view
                ((sR : Memref sig .scVector .vmem S128x128 .f32).view.writes (Elt F) fr
                  [⟨Rect.whole S128x128,
                      SparseCore.gatherPayload gathers_S1000x128_S128x128
                        (View.read (Elt F)
                          ((tV : Memref sig .scVector .hbm S1000x128 .f32).slice (Rect.unit ![0, 0] S1000x128.size inb_S1000x128_S1000x128_0_0) hsl).view
                          ft)
                        (SparseCore.rows
                          (View.read (Elt F) (sI : Memref sig .scVector .vmem S128 .i32).view
                            (View.write (Elt F) (sI : Memref sig .scVector .vmem S128 .i32).view fs
                              (ReadAs.same.apply
                                (View.read (Elt F) (idxChunk L k).view fi))
                              Finset.univ))
                          hn hin)⟩]))⟩]
        y =
      (Cert.Lookup.flatRows fi ft : Buf (Elt F) (oLoc d)) y := by
  intro y hy
  obtain ⟨x, -, rfl⟩ := Finset.mem_map.mp hy
  rw [Cert.WholePiece.writes_whole_emb, cast_eq, ReadAs.apply_same]
  rw [View.read_apply, cast_eq, Cert.WholePiece.writes_whole_emb, cast_eq]
  unfold SparseCore.gatherPayload
  rw [View.read_apply, cast_eq]
  unfold Cert.Lookup.flatRows
  refine congrArg ft ?_
  funext a
  apply Fin.ext
  match a with
  | ⟨0, _⟩ =>
    have hidx : View.read (Elt F) (sI : Memref sig .scVector .vmem S128 .i32).view
        (View.write (Elt F) (sI : Memref sig .scVector .vmem S128 .i32).view fs
          (ReadAs.same.apply (View.read (Elt F) (idxChunk L k).view fi)) Finset.univ) = (idxChunk L k).view.read (Elt F) fi := by
      rw [show (sI : Memref sig .scVector .vmem S128 .i32).view.write (Elt F) fs
            (ReadAs.same.apply ((idxChunk L k).view.read (Elt F) fi)) Finset.univ = (idxChunk L k).view.read (Elt F) fi
          from View.write_whole_univ _ _ _]
      rfl
    rw [Cert.Lookup.rowOf_val_of_range (hfi _).1 (hfi _).2]
    show 0 + 1 * (View.read (Elt F) (sI : Memref sig .scVector .vmem S128 .i32).view
        (View.write (Elt F) (sI : Memref sig .scVector .vmem S128 .i32).view fs
          (ReadAs.same.apply (View.read (Elt F) (idxChunk L k).view fi)) Finset.univ)
        (S128.rowMajor.symm ((x ⟨0, by decide⟩).cast hn.symm))).toNat = _
    rw [hidx, View.read_apply, cast_eq, Nat.zero_add, Nat.one_mul]
    refine congrArg (fun j => (fi j).toNat) ?_
    funext b
    apply Fin.ext
    match b with
    | ⟨0, _⟩ =>
      have hj : ((S128.rowMajor.symm ((x ⟨0, by decide⟩).cast hn.symm)) 0).val = (x ⟨0, by decide⟩).val := by
        have h1 := Shape.rowMajor_val_one (d := ![128]) (S128.rowMajor.symm ((x ⟨0, by decide⟩).cast hn.symm))
        rw [Equiv.apply_symm_apply] at h1
        exact h1.symm
      show k0_off1 L k 0 + 1 * ((S128.rowMajor.symm ((x ⟨0, by decide⟩).cast hn.symm)) 0).val
        = k0_off2 L k 0 + 1 * (x ⟨0, by decide⟩).val
      rw [hj, k0_off1_eq, k0_off2_eq]
      rfl
  | ⟨1, _⟩ =>
    show 0 + 1 * (x ⟨1, by decide⟩).val = 0 + 1 * (x ⟨1, by decide⟩).val
    rfl

/-- The loop's invariant before trip `k`. -/
def inv (fi : Buf (Elt F) (iLoc d)) (ft : Buf (Elt F) (tLoc d)) (fo : Buf (Elt F) (oLoc d)) (qi qt : PosShare TreeShare)
    (O : CellTallies nD τ sig (HIx 1)) (W : Waits sig (HIx 1)) (k : Nat) (_ : PUnit) : sProp 𝕄 :=
  iprop(Transfers.MayWaits (thr d L) (none : HIx 1) O
    ∗ ((iV : Memref sig .scVector .hbm S3276800 .i32).view.loc (thr d L) ↦{qi} fi)
    ∗ ((tV : Memref sig .scVector .hbm S1000x128 .f32).view.loc (thr d L) ↦{qt} ft)
    ∗ (oLoc d ↦[outRows (base L) (base L + 128 * k)]{fullShare} (Cert.Lookup.flatRows fi ft : Buf (Elt F) (oLoc d)))
    ∗ (oLoc d ↦[outRows (base L + 128 * k) (base L + 102400)]{fullShare} fo)
    ∗ (∃ f, (sI : Memref sig .scVector .vmem S128 .i32).view.loc (thr d L) ↦{fullShare} f)
    ∗ (∃ f, (sR : Memref sig .scVector .vmem S128x128 .f32).view.loc (thr d L) ↦{fullShare} f)
    ∗ semVal (cIcell d L) 0 ∗ semVal (cGcell d L) 0 ∗ semVal (cOcell d L) 0
    ∗ ∃ W', ⌜∀ p ∈ W', p ∈ W ∨ p.2 = none⌝ ∗ owes (thr d L) O W')

theorem tile_body (hF : (K (F := F)).Facts) (fi : Buf (Elt F) (iLoc d)) (ft : Buf (Elt F) (tLoc d)) (fo : Buf (Elt F) (oLoc d))
    (hfi : ∀ j, 0 ≤ (fi j).toInt ∧ (fi j).toInt ≤ 999) (qi qt : PosShare TreeShare)
    (O : CellTallies nD τ sig (HIx 1)) (W : Waits sig (HIx 1)) (hO : ∀ g, O g none = 0) :
    (iprop(levAts (K (F := F)).L (K (F := F)).lev ∗ emp
        ∗ ((iLoc d ↦{qi} fi) ∗ (tLoc d ↦{qt} ft) ∗ (oLoc d ↦[outRows (base L) (base L + 102400)]{fullShare} fo))
        ∗ scopedBufs (thr d L) ∗ scopedSems0 (thr d L) ∗ owes (thr d L) O W) : sProp 𝕄)
      ⊢ wp frame (wpE (defs₀ (F := F)) 𝒱₀ (thr d L) none) Set.univ
          (cc0__emb_gather L iV (Memref.isWhole_whole _) tV (Memref.isWhole_whole _) oV (Memref.isWhole_whole _)
            sI (Memref.isWhole_whole _) sR (Memref.isWhole_whole _) cc0_scratch2 cc0_scoped0 cc0_scoped1)
          fun _ => iprop((oLoc d ↦[outRows (base L) (base L + 102400)]{fullShare} (Cert.Lookup.flatRows fi ft : Buf (Elt F) (oLoc d)))
            ∗ scopedBufs (thr d L) ∗ scopedSems0 (thr d L)
            ∗ ∃ W', ⌜∀ p ∈ W', p ∈ W ∨ p.2 = none⌝ ∗ owes (thr d L) O W') := by
  simp only [cc0__emb_gather_eq_skeleton]; unfold cc0__emb_gather_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fr, Hr⟩, Hbufs⟩, ⟨HsemG, HsemI, HsemO, Hsems⟩, HO⟩
  ihave Hmw := ((K (F := F)).mayWaits_none (thr := thr d L) hO) $$ Hlv
  sl_for (inv d L fi ft fo qi qt O W) $$ [Hmw Hi Ht Ho Hs Hr HsemG HsemI HsemO HO]
  case region =>
    intro k _
    unfold inv
    have hk : k.val < 800 := Nat.lt_of_lt_of_le k.isLt k0_t1_abs.2.1
    iintro ⟨Hmw, Hi, Ht, Hdone, Htodo, ⟨%fs, Hs⟩, ⟨%fr, Hr⟩, HsemI, HsemG, HsemO, %W', %hW', HO⟩
    ihave Hsp := (todo_split (F := F) d L fo k hk).1 $$ Htodo
    icases Hsp with ⟨Hc, Htodo⟩
    have hin : ∀ (g : Buf (Elt F) ((sI : Memref sig .scVector .vmem S128 .i32).view.loc (thr d L))) (x : S128.Idx),
        ((sI : Memref sig .scVector .vmem S128 .i32).view.read (Elt F)
          ((sI : Memref sig .scVector .vmem S128 .i32).view.write (Elt F) g
            (ReadAs.same.apply ((idxChunk L k).view.read (Elt F) fi)) Finset.univ) x).toNat
          < S1000x128.size gathers_S1000x128_S128x128.axis := by
      intro g x
      have hw := Cert.Lookup.toNat_lt_of_range (hfi ((idxChunk L k).view.emb x)).1 (hfi ((idxChunk L k).view.emb x)).2
      rw [show (sI : Memref sig .scVector .vmem S128 .i32).view.write (Elt F) g
            (ReadAs.same.apply ((idxChunk L k).view.read (Elt F) fi)) Finset.univ = (idxChunk L k).view.read (Elt F) fi
          from View.write_whole_univ _ _ _]
      simp only [Memref.view_whole, View.read_whole]
      rw [View.read_apply, cast_eq]
      exact hw
    sl_exec
    sl_step
    ihave Hc' := (chunk_done (F := F) d L fi ft k _ ?hval) $$ Hc
    case hval =>
      sl_unfold_run_names
      exact chunk_value d L fi ft fo hfi k fs fr _ _ _
    ihave Hdone' := (done_join (F := F) d L _ k.val).2 $$ [Hdone Hc']
    · isplitl [Hdone] <;> iassumption
    isplitl [Hmw]; · iexact Hmw
    isplitl [Hi]; · iexact Hi
    isplitl [Ht]; · iexact Ht
    isplitl [Hdone']; · iexact Hdone'
    isplitl [Htodo]; · iexact Htodo
    isplitl [Hs]; · iexists _; iexact Hs
    isplitl [Hr]; · iexists _; iexact Hr
    isplitl [HsemI]; · iexact HsemI
    isplitl [HsemG]; · iexact HsemG
    isplitl [HsemO]; · iexact HsemO
    iexists (insert (SemLoc.dma cc0_scoped1.sem, (default : HIx 1)) (insert (SemLoc.dma cc0_scratch2.sem, (default : HIx 1))
      (insert (SemLoc.dma cc0_scoped0.sem, (default : HIx 1)) W'))); isplitr
    · ipureintro; intro p hp
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      · exact hW' p hp
    · iexact HO
  · unfold inv
    isplitl [Hmw]; · iexact Hmw
    isplitl [Hi]; · iexact Hi
    isplitl [Ht]; · iexact Ht
    isplitr
    · rw [show outRows (base L) (base L + 128 * 0) = ∅ from by ext y; simp [mem_outRows], pointsTo_empty]; iempintro
    isplitl [Ho]; · iexact Ho
    isplitl [Hs]; · iexists _; iexact Hs
    isplitl [Hr]; · iexists _; iexact Hr
    isplitl [HsemI]; · iexact HsemI
    isplitl [HsemG]; · iexact HsemG
    isplitl [HsemO]; · iexact HsemO
    iexists W; isplitr
    · ipureintro; exact fun p hp => .inl hp
    · iexact HO
  iintro %_ HI
  unfold inv
  icases HI with ⟨-, -, -, Hdone, -, ⟨%fs', Hs⟩, ⟨%fr', Hr⟩, HsemI, HsemG, HsemO, %W', %hW', HO⟩
  sl_exec
  sl_step
  have htr : Scf.trips k0_t1_loop.lb k0_t1_loop.ub k0_t1_loop.st = 800 := by decide
  rw [htr, show 128 * 800 = 102400 from rfl]
  isplitl [Hdone]; · iexact Hdone
  isplitl [Hs Hr Hbufs]
  · isplitl [Hs]; · iexists _; iexact Hs
    isplitl [Hr]; · iexists _; iexact Hr
    iexact Hbufs
  isplitl [HsemG HsemI HsemO Hsems]
  · isplitl [HsemG]; · iexact HsemG
    isplitl [HsemI]; · iexact HsemI
    isplitl [HsemO]; · iexact HsemO
    iexact Hsems
  iexists W'; isplitr
  · ipureintro; exact hW'
  · iexact HO

end Tile

end Cert.Proof.BitsLookup

end
-- ==== Proof.BitsLaunch.lean ====
/-
  The lookup kernel's launch, at the program as printed, for any float instance.  The host reshapes the
  [16384, 200] index array into a list of 3276800 words; the call hands every vector subcore a read share of that list and
  of the table and the 102400 rows of the flat result that worker 2 s + c owns; the subcores' tasks leave those rows at the
  looked-up rows; the host reshapes the [3276800, 128] result to [16384, 200, 128].  The run ends with both arguments as
  they were and the result at that reshape of the looked-up rows.
-/
import proofs.«217804_g22402549416331_cont_8to1_114_2_alg».proof.Proof.BitsBody

noncomputable section

namespace Cert.Proof.BitsLookup

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-- The index array and the result, as locations of device `d`. -/
abbrev aLoc (d : Dev nD) : Loc nD τ sig := (SparseCore.T d).loc main_arg0
abbrev rLoc (d : Dev nD) : Loc nD τ sig := (SparseCore.T d).loc main_v2

/-- The index list: the index array in row-major order; the flat looked-up rows; their [16384, 200, 128] view. -/
def fI (d : Dev nD) : Buf (Elt F) (iLoc d) := shapeCast S3276800 (m (aLoc d)) shapeCasts_S16384x200_S3276800
def fG (d : Dev nD) : Buf (Elt F) (oLoc d) := Cert.Lookup.flatRows (fI m d) (m (tLoc d))
def fR (d : Dev nD) : Buf (Elt F) (rLoc d) := shapeCast S16384x200x128 (fG m d) shapeCasts_S3276800x128_S16384x200x128

/-- What the proof asks of the launch memory: every index word lies in `[0, 999]` as a signed word. -/
def PreOK : Prop := ∀ (d : Dev nD) (p : S16384x200.Idx), 0 ≤ (m (aLoc d) p).toInt ∧ (m (aLoc d) p).toInt ≤ 999

theorem fI_range (hpre : PreOK m) (d : Dev nD) (j : (iLoc d).ty.Idx) : 0 ≤ (fI m d j).toInt ∧ (fI m d j).toInt ≤ 999 := by
  unfold fI shapeCast; exact hpre d _

/-! ## Shares and rows -/

/-- SparseCore `c`'s read share, and subcore `i`'s of it. -/
abbrev qC (c : ℕ) : PosShare TreeShare := Transfers.shareTokN fullShare c
abbrev qT (c i : ℕ) : PosShare TreeShare := Transfers.shareTokN (qC c) i

/-- Worker `2 i + c`'s first row, and its rows. -/
def tbase (c i : ℕ) : ℕ := 204800 * i + 102400 * c
abbrev tileRows (c i : ℕ) : Finset S3276800x128.Idx := outRows (tbase c i) (tbase c i + 102400)

theorem tileRows_disjoint {c c' i i' : ℕ} (hc : c < 2) (hc' : c' < 2) (h : c ≠ c' ∨ i ≠ i') : Disjoint (tileRows c i) (tileRows c' i') := by
  refine Finset.disjoint_left.mpr fun y h1 h2 => ?_
  rw [mem_outRows] at h1 h2; unfold tbase at h1 h2
  omega

theorem tileRows_cover : (Finset.univ : Finset S3276800x128.Idx)
    = (Finset.univ : Finset (Fin 2)).biUnion fun c => (Finset.univ : Finset (Fin 16)).biUnion fun i => tileRows c.val i.val := by
  ext y
  simp only [Finset.mem_univ, Finset.mem_biUnion, true_and, mem_outRows, true_iff]
  have hy : (y 0).val < 3276800 := (y 0).isLt
  refine ⟨⟨((y 0).val / 102400) % 2, by omega⟩, ⟨(y 0).val / 204800, by omega⟩, ?_⟩
  show tbase (((y 0).val / 102400) % 2) ((y 0).val / 204800) ≤ (y 0).val
    ∧ (y 0).val < tbase (((y 0).val / 102400) % 2) ((y 0).val / 204800) + 102400
  unfold tbase
  constructor <;> omega

omit m in
/-- The flat result, whole, is the workers' rows. -/
theorem out_split (d : Dev nD) (f : Buf (Elt F) (oLoc d)) :
    (oLoc d ↦{fullShare} f : sProp 𝕄)
      = bigSep Finset.univ fun c : Fin 2 => bigSep Finset.univ fun i : Fin 16 => oLoc d ↦[tileRows c.val i.val]{fullShare} f := by
  show (oLoc d ↦[(Finset.univ : Finset S3276800x128.Idx)]{fullShare} f : sProp 𝕄) = _
  rw [tileRows_cover, pointsTo_biUnion (ℓ := oLoc d) Finset.univ
    (fun c : Fin 2 => (Finset.univ : Finset (Fin 16)).biUnion fun i => tileRows c.val i.val) ?d1]
  · refine bigSep_congr fun c _ => ?_
    exact pointsTo_biUnion (ℓ := oLoc d) Finset.univ (fun i : Fin 16 => tileRows c.val i.val)
      fun i _ i' _ h => tileRows_disjoint c.isLt c.isLt (.inr fun e => h (Fin.ext e))
  case d1 =>
    intro c _ c' _ h
    refine (Finset.disjoint_biUnion_left _ _ _).mpr fun i _ => (Finset.disjoint_biUnion_right _ _ _).mpr fun i' _ => ?_
    exact tileRows_disjoint c.isLt c'.isLt (.inl fun e => h (Fin.ext e))

variable [FloatOps F]

/-! ## What the handshakes carry -/

def P : (K (F := F)).Pay (nD := nD) (Val := Elt F) (Name := ℕ) (U := UU) where
  st := fun _ d c => iprop((iLoc d ↦{qC c.val} fI m d) ∗ (tLoc d ↦{qC c.val} m (tLoc d))
      ∗ bigSep Finset.univ fun i : Fin 16 => oLoc d ↦[tileRows c.val i.val]{fullShare} m (oLoc d))
  dn := fun _ d c => bigSep Finset.univ fun i : Fin 16 => oLoc d ↦[tileRows c.val i.val]{fullShare} fG m d
  go := fun _ d c i => iprop((iLoc d ↦{qT c.val i.val} fI m d) ∗ (tLoc d ↦{qT c.val i.val} m (tLoc d))
      ∗ oLoc d ↦[tileRows c.val i.val]{fullShare} m (oLoc d))
  td := fun _ d c i => oLoc d ↦[tileRows c.val i.val]{fullShare} fG m d
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__emb_gather (coordsV c s)
          iV (Memref.isWhole_whole _) tV (Memref.isWhole_whole _) oV (Memref.isWhole_whole _)
          sI (Memref.isWhole_whole _) sR (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF (fI m d) (m (tLoc d)) (m (oLoc d)) (fI_range m hpre d) (qT c.val i.val) (qT c.val i.val) O W hO).trans
    (wp_mono frame _ _ fun _ => obl_post)

theorem vecSplit : (K (F := F)).VecSplit' (P m) 0 := by
  intro d c
  show iprop((iLoc d ↦{qC c.val} fI m d) ∗ (tLoc d ↦{qC c.val} m (tLoc d))
        ∗ bigSep Finset.univ fun i : Fin 16 => oLoc d ↦[tileRows c.val i.val]{fullShare} m (oLoc d))
      ⊢ |={Set.univ}=> iprop(
        (bigSep Finset.univ fun i : Fin 16 => iprop((iLoc d ↦{qT c.val i.val} fI m d) ∗ (tLoc d ↦{qT c.val i.val} m (tLoc d))
          ∗ oLoc d ↦[tileRows c.val i.val]{fullShare} m (oLoc d)))
        ∗ ((bigSep Finset.univ fun i : Fin 16 => oLoc d ↦[tileRows c.val i.val]{fullShare} fG m d)
            -∗ bigSep Finset.univ fun i : Fin 16 => oLoc d ↦[tileRows c.val i.val]{fullShare} fG m d))
  rw [bigSep_sep', bigSep_sep']
  iintro ⟨Hi, Ht, Ho⟩
  ihave Hi' := (Transfers.pointsTo_toks_split (qC c.val) 16) $$ Hi
  icases Hi' with ⟨-, Hi⟩
  ihave Ht' := (Transfers.pointsTo_toks_split (qC c.val) 16) $$ Ht
  icases Ht' with ⟨-, Ht⟩
  imodintro
  isplitl [Hi Ht Ho]
  · isplitl [Hi]; · iexact Hi
    isplitl [Ht]; · iexact Ht
    iexact Ho
  iintro H; iexact H

/-! ## The launch element: the handshakes' rounds; the kernel keeps no ghost state of its own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a' : DevRef τ sig := Proc.devRef .tc (main_arg0 : Ref sig .tc)
abbrev t' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev r' : DevRef τ sig := Proc.devRef .tc (main_v2 : Ref sig .tc)
/-- The two host reshapes. -/
abbrev op1 : HloOp τ sig (Elt F) := StableHlo.reshape main_arg0 main_v0 rfl shapeCasts_S16384x200_S3276800
abbrev op2 : HloOp τ sig (Elt F) := StableHlo.reshape main_v1 main_v2 rfl shapeCasts_S3276800x128_S16384x200x128
abbrev S1 : Finset (DevRef τ sig) := {a', i'}
abbrev S2 : Finset (DevRef τ sig) := {o', r'}

omit [FloatOps F] in
theorem held_S1 (d : Dev nD) (W : Valuation τ sig (Elt F)) :
    (held (T d) S1 W : sProp 𝕄) = iprop((aLoc d ↦{fullShare} W a') ∗ iLoc d ↦{fullShare} W i') := by
  unfold held S1
  rw [SparseCore.bigSep_insert' (by decide), bigSep_singleton]
omit [FloatOps F] in
theorem held_S2 (d : Dev nD) (W : Valuation τ sig (Elt F)) :
    (held (T d) S2 W : sProp 𝕄) = iprop((oLoc d ↦{fullShare} W o') ∗ rLoc d ↦{fullShare} W r') := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (tLoc d ↦{fullShare} W main_arg1)
      ∗ (iLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; before the second reshape, the flat result at the looked-up rows. -/
def V0 (d : Dev nD) : Valuation τ sig (Elt F) := fun b => m (d, b)
def V2 (d : Dev nD) : Valuation τ sig (Elt F) := Function.update (V0 m d) o' (fG m d)

theorem V2_o (d : Dev nD) : V2 m d o' = fG m d := Function.update_self _ _ _
theorem V2_r (d : Dev nD) : V2 m d r' = m (rLoc d) := Function.update_of_ne (show r' ≠ o' by decide) _ _

theorem op1_a (d : Dev nD) : (op1 (F := F)).result (V0 m d) a' = m (aLoc d) :=
  (op1 (F := F)).result_of_not_mem (V0 m d) (b := a') (show a' ∉ ({i'} : Finset (DevRef τ sig)) by decide)
theorem op1_i (d : Dev nD) : (op1 (F := F)).result (V0 m d) i' = fI m d :=
  StableHlo.reshape_result main_arg0 main_v0 rfl shapeCasts_S16384x200_S3276800 _ _ (V0 m d)
theorem op2_r (d : Dev nD) : (op2 (F := F)).result (V2 m d) r' = fR m d := by
  refine (StableHlo.reshape_result main_v1 main_v2 rfl shapeCasts_S3276800x128_S16384x200x128 _ _ (V2 m d)).trans ?_
  show (fun i => shapeCast S16384x200x128 (V2 m d o') shapeCasts_S3276800x128_S16384x200x128 i) = _
  rw [V2_o]; rfl

theorem st0_eq (d : Dev nD) : (bigSep Finset.univ fun c : Fin ((K (F := F)).nCore 0) => (P m).st 0 d c)
    = iprop((bigSep Finset.univ fun c : Fin 2 => iLoc d ↦{qC c.val} fI m d) ∗ (bigSep Finset.univ fun c : Fin 2 => tLoc d ↦{qC c.val} m (tLoc d))
      ∗ bigSep Finset.univ fun c : Fin 2 => bigSep Finset.univ fun i : Fin 16 => oLoc d ↦[tileRows c.val i.val]{fullShare} m (oLoc d)) := by
  show (bigSep (Finset.univ : Finset (Fin 2)) fun c => iprop((iLoc d ↦{qC c.val} fI m d) ∗ (tLoc d ↦{qC c.val} m (tLoc d))
      ∗ bigSep Finset.univ fun i : Fin 16 => oLoc d ↦[tileRows c.val i.val]{fullShare} m (oLoc d))) = _
  rw [bigSep_sep', bigSep_sep']
theorem dn0_eq (d : Dev nD) : (bigSep Finset.univ fun c : Fin ((K (F := F)).nCore 0) => (P m).dn 0 d c) = (oLoc d ↦{fullShare} fG m d : sProp 𝕄) :=
  (out_split (F := F) d (fG m d)).symm

/-- What @main leaves the claim: both arguments at their launch contents, the result at the view of the looked-up rows. -/
abbrev FIN (d : Dev nD) : sProp 𝕄 :=
  iprop((aLoc d ↦{fullShare} m (aLoc d)) ∗ (tLoc d ↦{Transfers.shareDrop fullShare 2} m (tLoc d)) ∗ rLoc d ↦{fullShare} fR m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Ht, Hi, Ho, Hr⟩, -, -⟩, -⟩
  -- the index array read as a list
  iapply (wp_hlo_within 𝒱 (SparseCore.T d) none Set.univ (op := op1) (S := S1) (Finset.Subset.refl _) (V := V0 m d)) $$ [Hb Ha Hi]
  · isplitl [Hb]; · iexact Hb
    rw [held_S1]
    isplitl [Ha]; · iexact Ha
    iexact Hi
  iintro ⟨Hb, Hheld⟩
  ihave Hh := (Entails.of_eq (held_S1 (F := F) d _)) $$ Hheld
  rw [op1_a, op1_i]
  icases Hh with ⟨Ha, Hi⟩
  rw [wp_ret]; imodintro
  -- a read share of the list and of the table for each SparseCore; the flat result by workers
  ihave Hi2 := (Transfers.pointsTo_toks_split fullShare 2) $$ Hi
  icases Hi2 with ⟨-, Hi⟩
  ihave Ht2 := (Transfers.pointsTo_toks_split fullShare 2) $$ Ht
  icases Ht2 with ⟨Htk, Ht⟩
  ihave Ho2 := (Entails.of_eq (out_split (F := F) d _)) $$ Ho
  iapply ((K (F := F)).wp_run (D (F := F)) 𝒱 (EH := EH) (P := P m) κ d 0) $$ [Hst Hi Ht Ho2 Hb Ha Htk Hr]
  isplitr; · iexact Hctx
  isplitl [Hst]; · iexact Hst
  isplitl [Hi Ht Ho2]
  · rw [st0_eq]
    isplitl [Hi]; · iexact Hi
    isplitl [Ht]; · iexact Ht
    iexact Ho2
  iintro ⟨Hst, Hdn⟩
  ihave Ho := (Entails.of_eq (dn0_eq m d)) $$ Hdn
  -- the flat result viewed [16384, 200, 128]
  iapply (wp_hlo_within 𝒱 (SparseCore.T d) none Set.univ (op := op2) (S := S2) (Finset.Subset.refl _) (V := V2 m d)) $$ [Hb Ho Hr]
  · isplitl [Hb]; · iexact Hb
    rw [held_S2, V2_o, V2_r]
    isplitl [Ho]; · iexact Ho
    iexact Hr
  iintro ⟨Hb, Hheld⟩
  ihave Hh := (Entails.of_eq (held_S2 (F := F) d _)) $$ Hheld
  rw [op2_r]
  icases Hh with ⟨-, Hr⟩
  rw [wp_ret]; imodintro; imodintro
  isplitl [Hst]; · iexact Hst
  isplitl [Ha]; · iexact Ha
  isplitl [Htk]; · iexact Htk
  iexact Hr

def fq (d : Dev nD) (s' : Phys nD τ sig (Elt F)) : Prop :=
  s'.mem.mem (aLoc d) = m (aLoc d) ∧ s'.mem.mem (tLoc d) = m (tLoc d) ∧ s'.mem.mem (rLoc d) = fR m d

theorem hfin (d : Dev nD) (s' : Phys nD τ sig (Elt F)) : iprop(FIN m d ∗ SI s') ⊢ (⌜fq m d s'⌝ : sProp 𝕄) := by
  iintro ⟨⟨Ha, Ht, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := tLoc d) (I := Finset.univ) (q := Transfers.shareDrop fullShare 2) (f := m (tLoc d)))) $$ [HSI Ht]
  · isplitl [HSI] <;> iassumption
  icases H with ⟨%h2, HSI, -⟩
  ihave H := (SI_pointsTo_agree (st := s') (ℓ := rLoc d) (I := Finset.univ) (q := fullShare) (f := fR m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- The run's post: the result at the view of the looked-up rows, both arguments as they were. -/
def QC : PUnit × MemSt nD τ sig (Elt F) → Prop := fun r => ∀ c : Dev nD,
  r.2.mem (rLoc c) = fR m c ∧ r.2.mem (aLoc c) = m (aLoc c) ∧ r.2.mem (tLoc c) = m (tLoc c)

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h c => ⟨(h c).2.2, (h c).1, (h c).2.1⟩)

end Cert.Proof.BitsLookup

end
-- ==== Proof.IdealBody.lean ====
/-
  One vector subcore's task of the lookup kernel, at the ideal instance's printed program but for any float instance.
  Subcore (c, s) is worker w = 2 s + c and owns rows [102400 w, 102400 (w + 1)) of the flat result.  In trip k it copies
  words [102400 w + 128 k, 102400 w + 128 k + 128) of the index list into its list scratch, gathers the table rows those
  words name into its row scratch, and copies the row scratch out to the same 128 rows of the flat result.  Every copy is
  waited for before the next is issued.  The loop's invariant: the worker's rows below 128 k hold the looked-up rows, the
  rows from 128 k on hold what they held at the start.
-/
import Idealize.ShloMosaic.Lib.SparseCore.Launch
import Idealize.ShloMosaic.Lib.StableHlo.Run
import Idealize.ShloMosaic.Lib.Pipeline.Kit
import Idealize.ShloMosaic.Lib.Tactic
import proofs.«217804_g22402549416331_cont_8to1_114_2_alg».proof.Proof.Gen.KernelIdeal
import proofs.«217804_g22402549416331_cont_8to1_114_2_alg».proof.Proof.Gen.KernelIdeal.Skeleton
import proofs.«217804_g22402549416331_cont_8to1_114_2_alg».proof.Proof.FlatSpec
import proofs.«217804_g22402549416331_cont_8to1_114_2_alg».proof.Proof.LibWholePiece

noncomputable section

namespace Cert.Proof.IdealLookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The flat index list, the table and the flat result, as locations of device `d`. -/
abbrev iLoc (d : Dev nD) : Loc nD τ sig := (SparseCore.T d).loc main_v0
abbrev tLoc (d : Dev nD) : Loc nD τ sig := (SparseCore.T d).loc main_arg1
abbrev oLoc (d : Dev nD) : Loc nD τ sig := (SparseCore.T d).loc main_v1

abbrev iV : Memref sig .scVector .hbm S3276800 .i32 := Memref.whole main_v0_scv
abbrev tV : Memref sig .scVector .hbm S1000x128 .f32 := Memref.whole main_arg1_scv
abbrev oV : Memref sig .scVector .hbm S3276800x128 .f32 := Memref.whole main_v1_scv
/-- A subcore's scratch: the fetched words, the gathered rows. -/
abbrev sI : Memref sig .scVector .vmem S128 .i32 := Memref.whole cc0_scratch0
abbrev sR : Memref sig .scVector .vmem S128x128 .f32 := Memref.whole cc0_scratch1

/-- The rows `[lo, hi)` of the flat result, all their columns. -/
def outRows (lo hi : ℕ) : Finset S3276800x128.Idx := Finset.univ.filter fun y => lo ≤ (y 0).val ∧ (y 0).val < hi

theorem mem_outRows {lo hi : ℕ} {y : S3276800x128.Idx} : y ∈ outRows lo hi ↔ lo ≤ (y 0).val ∧ (y 0).val < hi := by
  simp [outRows]

theorem outRows_union {a b c : ℕ} (hab : a ≤ b) (hbc : b ≤ c) : outRows a c = outRows a b ∪ outRows b c := by
  ext y; simp only [Finset.mem_union, mem_outRows]; omega

theorem outRows_disjoint {a b c : ℕ} : Disjoint (outRows a b) (outRows b c) :=
  Finset.disjoint_left.mpr fun y h1 h2 => by rw [mem_outRows] at h1 h2; omega

variable [FloatOps F]

section Tile

variable (d : Dev nD) (L : grid0.Coords)

abbrev cV (L : grid0.Coords) : Fin τ.nSC := (L 0).castLE hcore0
abbrev jV (L : grid0.Coords) : Fin τ.nSub := (L 1).castLE hsub0

/-- The first flat row of worker `2 s + c`. -/
def base (L : grid0.Coords) : ℕ := 204800 * (L 1).val + 102400 * (L 0).val

/-- Trip `k`'s 128 words of the list and 128 rows of the result, as the program slices them. -/
abbrev idxChunk (L : grid0.Coords) (k : Fin k0_t1_loop.trips) : Memref sig .scVector .hbm S128 .i32 :=
  (iV : Memref sig .scVector .hbm S3276800 .i32).slice (Rect.unit (s := S3276800) (k0_off1 L k) S128.size (k0_off1_inb L k)) (fun _ => rfl)
abbrev outChunk (L : grid0.Coords) (k : Fin k0_t1_loop.trips) : Memref sig .scVector .hbm S128x128 .f32 :=
  (oV : Memref sig .scVector .hbm S3276800x128 .f32).slice (Rect.unit (s := S3276800x128) (k0_off2 L k) S128x128.size (k0_off2_inb L k)) (fun _ => rfl)

omit [FloatOps F] in
theorem set_outChunk (k : Fin k0_t1_loop.trips) : (outChunk L k).view.set = outRows (base L + 128 * k.val) (base L + 128 * k.val + 128) := by
  show ((View.whole (main_v1_scv : Ref sig .scVector)).slice (Rect.unit (s := S3276800x128) (k0_off2 L k) S128x128.size (k0_off2_inb L k))).set = _
  rw [View.set_slice_whole]
  ext y
  rw [Rect.mem_set_unit, mem_outRows, k0_off2_eq]
  constructor
  · intro h
    have h0 := h 0
    simp only [base] at h0 ⊢
    simpa using h0
  · intro h a
    match a with
    | ⟨0, _⟩ => simp only [base] at h; simpa using h
    | ⟨1, _⟩ =>
      have h1 : (y 1).val < 128 := (y 1).isLt
      exact ⟨Nat.zero_le _, by show (y 1).val < 0 + 128; omega⟩

/-- The subcore's thread. -/
abbrev thr : Thread nD τ := V d (cV L) (jV L)

abbrev cIcell : GSem nD τ sig := (thr d L, .dma cc0_scoped0.sem)
abbrev cGcell : GSem nD τ sig := (thr d L, .dma cc0_scratch2.sem)
abbrev cOcell : GSem nD τ sig := (thr d L, .dma cc0_scoped1.sem)

omit [FloatOps F] in
theorem ownSems0_V :
    (ownSems0 (thr d L) : sProp 𝕄)
      = iprop(semVal (cGcell d L) 0 ∗ semVal (cIcell d L) 0 ∗ semVal (cOcell d L) 0
          ∗ bigSep ((((ownCells (thr d L)).erase (cGcell d L)).erase (cIcell d L)).erase (cOcell d L)) fun g => semVal g 0) := by
  unfold SparseCore.Cfg.ownSems0
  rw [SparseCore.bigSep_erase' ((mem_ownCells (g := cGcell d L)).mpr ⟨rfl, by
      show (SemLoc.dma cc0_scratch2.sem : SemLoc sig).isScoped .scVector = true; decide⟩),
    SparseCore.bigSep_erase' (Finset.mem_erase.mpr ⟨by simp [cGcell, cIcell]; decide, (mem_ownCells (g := cIcell d L)).mpr ⟨rfl, by
      show (SemLoc.dma cc0_scoped0.sem : SemLoc sig).isScoped .scVector = true; decide⟩⟩),
    SparseCore.bigSep_erase' (Finset.mem_erase.mpr ⟨by simp [cIcell, cOcell]; decide, Finset.mem_erase.mpr ⟨by simp [cGcell, cOcell]; decide,
      (mem_ownCells (g := cOcell d L)).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- The rows still to do before trip `k` are trip `k`'s 128 rows, as the program slices them, and the rest. -/
theorem todo_split (fo : Buf (Elt F) (oLoc d)) (k : Fin k0_t1_loop.trips) (hk : k.val < 800) :
    (oLoc d ↦[outRows (base L + 128 * k.val) (base L + 102400)]{fullShare} fo : sProp 𝕄)
      ⊣⊢ iprop(((outChunk L k).view.loc (thr d L) ↦[(outChunk L k).view.set]{fullShare} fo)
          ∗ oLoc d ↦[outRows (base L + 128 * (k.val + 1)) (base L + 102400)]{fullShare} fo) := by
  rw [set_outChunk, outRows_union (a := base L + 128 * k.val) (b := base L + 128 * k.val + 128) (c := base L + 102400) (by omega) (by omega),
    show base L + 128 * (k.val + 1) = base L + 128 * k.val + 128 by omega]
  exact pointsTo_union outRows_disjoint

omit [FloatOps F] in
/-- The rows done before trip `k` and trip `k`'s 128 rows are the rows done before trip `k + 1`. -/
theorem done_join (g : Buf (Elt F) (oLoc d)) (k : ℕ) :
    (oLoc d ↦[outRows (base L) (base L + 128 * (k + 1))]{fullShare} g : sProp 𝕄)
      ⊣⊢ iprop((oLoc d ↦[outRows (base L) (base L + 128 * k)]{fullShare} g)
          ∗ oLoc d ↦[outRows (base L + 128 * k) (base L + 128 * k + 128)]{fullShare} g) := by
  rw [outRows_union (a := base L) (b := base L + 128 * k) (c := base L + 128 * (k + 1)) (by omega) (by omega),
    show base L + 128 * (k + 1) = base L + 128 * k + 128 by omega]
  exact pointsTo_union outRows_disjoint

omit [FloatOps F] in
/-- Trip `k`'s rows, once they hold the looked-up rows on their own elements, are a piece of the result at the one
    whole-array function. -/
theorem chunk_done (fi : Buf (Elt F) (iLoc d)) (ft : Buf (Elt F) (tLoc d)) (k : Fin k0_t1_loop.trips) (X : Buf (Elt F) (oLoc d))
    (hX : ∀ y ∈ (outChunk L k).view.set, X y = (Cert.Lookup.flatRows fi ft : Buf (Elt F) (oLoc d)) y) :
    ((outChunk L k).view.loc (thr d L) ↦[(outChunk L k).view.set]{fullShare} X : sProp 𝕄)
      ⊢ oLoc d ↦[outRows (base L + 128 * k.val) (base L + 128 * k.val + 128)]{fullShare} (Cert.Lookup.flatRows fi ft : Buf (Elt F) (oLoc d)) := by
  rw [← set_outChunk]
  exact Entails.of_eq (pointsTo_congr hX)

/-- What trip `k` leaves in its 128 rows of the flat result.  The copy-out's payload is the row scratch, which the gather
    filled with the table rows named by the list scratch, which the copy-in filled with words
    [base + 128 k, base + 128 k + 128) of the index list: so row base + 128 k + r of the result holds the table's row
    numbered by word base + 128 k + r, the word's unsigned value being its row number because the word lies in [0, 999]. -/
theorem chunk_value (fi : Buf (Elt F) (iLoc d)) (ft : Buf (Elt F) (tLoc d)) (fo : Buf (Elt F) (oLoc d))
    (hfi : ∀ j, 0 ≤ (fi j).toInt ∧ (fi j).toInt ≤ 999) (k : Fin k0_t1_loop.trips)
    (fs : Buf (Elt F) ((sI : Memref sig .scVector .vmem S128 .i32).view.loc (thr d L)))
    (fr : Buf (Elt F) ((sR : Memref sig .scVector .vmem S128x128 .f32).view.loc (thr d L)))
    (hn : S128.numel = S128x128.size gathers_S1000x128_S128x128.axis')
    (hin : ∀ x, ((sI : Memref sig .scVector .vmem S128 .i32).view.read (Elt F)
          ((sI : Memref sig .scVector .vmem S128 .i32).view.write (Elt F) fs
            (ReadAs.same.apply ((idxChunk L k).view.read (Elt F) fi)) Finset.univ) x).toNat
          < S1000x128.size gathers_S1000x128_S128x128.axis)
    (hsl : ∀ a, (Rect.unit (s := S1000x128) ![0, 0] S1000x128.size inb_S1000x128_S1000x128_0_0).stride a = 1) :
    ∀ y ∈ (outChunk L k).view.set,
      (outChunk L k).view.writes (Elt F) fo
        [⟨Rect.whole S128x128,
            ReadAs.same.apply
              (View.read (Elt F) (sR : Memref sig .scVector .vmem S128x128 .f32).view
                ((sR : Memref sig .scVector .vmem S128x128 .f32).view.writes (Elt F) fr
                  [⟨Rect.whole S128x128,
                      SparseCore.gatherPayload gathers_S1000x128_S128x128
                        (View.read (Elt F)
                          ((tV : Memref sig .scVector .hbm S1000x128 .f32).slice (Rect.unit ![0, 0] S1000x128.size inb_S1000x128_S1000x128_0_0) hsl).view
                          ft)
                        (SparseCore.rows
                          (View.read (Elt F) (sI : Memref sig .scVector .vmem S128 .i32).view
                            (View.write (Elt F) (sI : Memref sig .scVector .vmem S128 .i32).view fs
                              (ReadAs.same.apply
                                (View.read (Elt F) (idxChunk L k).view fi))
                              Finset.univ))
                          hn hin)⟩]))⟩]
        y =
      (Cert.Lookup.flatRows fi ft : Buf (Elt F) (oLoc d)) y := by
  intro y hy
  obtain ⟨x, -, rfl⟩ := Finset.mem_map.mp hy
  rw [Cert.WholePiece.writes_whole_emb, cast_eq, ReadAs.apply_same]
  rw [View.read_apply, cast_eq, Cert.WholePiece.writes_whole_emb, cast_eq]
  unfold SparseCore.gatherPayload
  rw [View.read_apply, cast_eq]
  unfold Cert.Lookup.flatRows
  refine congrArg ft ?_
  funext a
  apply Fin.ext
  match a with
  | ⟨0, _⟩ =>
    have hidx : View.read (Elt F) (sI : Memref sig .scVector .vmem S128 .i32).view
        (View.write (Elt F) (sI : Memref sig .scVector .vmem S128 .i32).view fs
          (ReadAs.same.apply (View.read (Elt F) (idxChunk L k).view fi)) Finset.univ) = (idxChunk L k).view.read (Elt F) fi := by
      rw [show (sI : Memref sig .scVector .vmem S128 .i32).view.write (Elt F) fs
            (ReadAs.same.apply ((idxChunk L k).view.read (Elt F) fi)) Finset.univ = (idxChunk L k).view.read (Elt F) fi
          from View.write_whole_univ _ _ _]
      rfl
    rw [Cert.Lookup.rowOf_val_of_range (hfi _).1 (hfi _).2]
    show 0 + 1 * (View.read (Elt F) (sI : Memref sig .scVector .vmem S128 .i32).view
        (View.write (Elt F) (sI : Memref sig .scVector .vmem S128 .i32).view fs
          (ReadAs.same.apply (View.read (Elt F) (idxChunk L k).view fi)) Finset.univ)
        (S128.rowMajor.symm ((x ⟨0, by decide⟩).cast hn.symm))).toNat = _
    rw [hidx, View.read_apply, cast_eq, Nat.zero_add, Nat.one_mul]
    refine congrArg (fun j => (fi j).toNat) ?_
    funext b
    apply Fin.ext
    match b with
    | ⟨0, _⟩ =>
      have hj : ((S128.rowMajor.symm ((x ⟨0, by decide⟩).cast hn.symm)) 0).val = (x ⟨0, by decide⟩).val := by
        have h1 := Shape.rowMajor_val_one (d := ![128]) (S128.rowMajor.symm ((x ⟨0, by decide⟩).cast hn.symm))
        rw [Equiv.apply_symm_apply] at h1
        exact h1.symm
      show k0_off1 L k 0 + 1 * ((S128.rowMajor.symm ((x ⟨0, by decide⟩).cast hn.symm)) 0).val
        = k0_off2 L k 0 + 1 * (x ⟨0, by decide⟩).val
      rw [hj, k0_off1_eq, k0_off2_eq]
      rfl
  | ⟨1, _⟩ =>
    show 0 + 1 * (x ⟨1, by decide⟩).val = 0 + 1 * (x ⟨1, by decide⟩).val
    rfl

/-- The loop's invariant before trip `k`. -/
def inv (fi : Buf (Elt F) (iLoc d)) (ft : Buf (Elt F) (tLoc d)) (fo : Buf (Elt F) (oLoc d)) (qi qt : PosShare TreeShare)
    (O : CellTallies nD τ sig (HIx 1)) (W : Waits sig (HIx 1)) (k : Nat) (_ : PUnit) : sProp 𝕄 :=
  iprop(Transfers.MayWaits (thr d L) (none : HIx 1) O
    ∗ ((iV : Memref sig .scVector .hbm S3276800 .i32).view.loc (thr d L) ↦{qi} fi)
    ∗ ((tV : Memref sig .scVector .hbm S1000x128 .f32).view.loc (thr d L) ↦{qt} ft)
    ∗ (oLoc d ↦[outRows (base L) (base L + 128 * k)]{fullShare} (Cert.Lookup.flatRows fi ft : Buf (Elt F) (oLoc d)))
    ∗ (oLoc d ↦[outRows (base L + 128 * k) (base L + 102400)]{fullShare} fo)
    ∗ (∃ f, (sI : Memref sig .scVector .vmem S128 .i32).view.loc (thr d L) ↦{fullShare} f)
    ∗ (∃ f, (sR : Memref sig .scVector .vmem S128x128 .f32).view.loc (thr d L) ↦{fullShare} f)
    ∗ semVal (cIcell d L) 0 ∗ semVal (cGcell d L) 0 ∗ semVal (cOcell d L) 0
    ∗ ∃ W', ⌜∀ p ∈ W', p ∈ W ∨ p.2 = none⌝ ∗ owes (thr d L) O W')

theorem tile_body (hF : (K (F := F)).Facts) (fi : Buf (Elt F) (iLoc d)) (ft : Buf (Elt F) (tLoc d)) (fo : Buf (Elt F) (oLoc d))
    (hfi : ∀ j, 0 ≤ (fi j).toInt ∧ (fi j).toInt ≤ 999) (qi qt : PosShare TreeShare)
    (O : CellTallies nD τ sig (HIx 1)) (W : Waits sig (HIx 1)) (hO : ∀ g, O g none = 0) :
    (iprop(levAts (K (F := F)).L (K (F := F)).lev ∗ emp
        ∗ ((iLoc d ↦{qi} fi) ∗ (tLoc d ↦{qt} ft) ∗ (oLoc d ↦[outRows (base L) (base L + 102400)]{fullShare} fo))
        ∗ scopedBufs (thr d L) ∗ scopedSems0 (thr d L) ∗ owes (thr d L) O W) : sProp 𝕄)
      ⊢ wp frame (wpE (defs₀ (F := F)) 𝒱₀ (thr d L) none) Set.univ
          (cc0__emb_gather L iV (Memref.isWhole_whole _) tV (Memref.isWhole_whole _) oV (Memref.isWhole_whole _)
            sI (Memref.isWhole_whole _) sR (Memref.isWhole_whole _) cc0_scratch2 cc0_scoped0 cc0_scoped1)
          fun _ => iprop((oLoc d ↦[outRows (base L) (base L + 102400)]{fullShare} (Cert.Lookup.flatRows fi ft : Buf (Elt F) (oLoc d)))
            ∗ scopedBufs (thr d L) ∗ scopedSems0 (thr d L)
            ∗ ∃ W', ⌜∀ p ∈ W', p ∈ W ∨ p.2 = none⌝ ∗ owes (thr d L) O W') := by
  simp only [cc0__emb_gather_eq_skeleton]; unfold cc0__emb_gather_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fr, Hr⟩, Hbufs⟩, ⟨HsemG, HsemI, HsemO, Hsems⟩, HO⟩
  ihave Hmw := ((K (F := F)).mayWaits_none (thr := thr d L) hO) $$ Hlv
  sl_for (inv d L fi ft fo qi qt O W) $$ [Hmw Hi Ht Ho Hs Hr HsemG HsemI HsemO HO]
  case region =>
    intro k _
    unfold inv
    have hk : k.val < 800 := Nat.lt_of_lt_of_le k.isLt k0_t1_abs.2.1
    iintro ⟨Hmw, Hi, Ht, Hdone, Htodo, ⟨%fs, Hs⟩, ⟨%fr, Hr⟩, HsemI, HsemG, HsemO, %W', %hW', HO⟩
    ihave Hsp := (todo_split (F := F) d L fo k hk).1 $$ Htodo
    icases Hsp with ⟨Hc, Htodo⟩
    have hin : ∀ (g : Buf (Elt F) ((sI : Memref sig .scVector .vmem S128 .i32).view.loc (thr d L))) (x : S128.Idx),
        ((sI : Memref sig .scVector .vmem S128 .i32).view.read (Elt F)
          ((sI : Memref sig .scVector .vmem S128 .i32).view.write (Elt F) g
            (ReadAs.same.apply ((idxChunk L k).view.read (Elt F) fi)) Finset.univ) x).toNat
          < S1000x128.size gathers_S1000x128_S128x128.axis := by
      intro g x
      have hw := Cert.Lookup.toNat_lt_of_range (hfi ((idxChunk L k).view.emb x)).1 (hfi ((idxChunk L k).view.emb x)).2
      rw [show (sI : Memref sig .scVector .vmem S128 .i32).view.write (Elt F) g
            (ReadAs.same.apply ((idxChunk L k).view.read (Elt F) fi)) Finset.univ = (idxChunk L k).view.read (Elt F) fi
          from View.write_whole_univ _ _ _]
      simp only [Memref.view_whole, View.read_whole]
      rw [View.read_apply, cast_eq]
      exact hw
    sl_exec
    sl_step
    ihave Hc' := (chunk_done (F := F) d L fi ft k _ ?hval) $$ Hc
    case hval =>
      sl_unfold_run_names
      exact chunk_value d L fi ft fo hfi k fs fr _ _ _
    ihave Hdone' := (done_join (F := F) d L _ k.val).2 $$ [Hdone Hc']
    · isplitl [Hdone] <;> iassumption
    isplitl [Hmw]; · iexact Hmw
    isplitl [Hi]; · iexact Hi
    isplitl [Ht]; · iexact Ht
    isplitl [Hdone']; · iexact Hdone'
    isplitl [Htodo]; · iexact Htodo
    isplitl [Hs]; · iexists _; iexact Hs
    isplitl [Hr]; · iexists _; iexact Hr
    isplitl [HsemI]; · iexact HsemI
    isplitl [HsemG]; · iexact HsemG
    isplitl [HsemO]; · iexact HsemO
    iexists (insert (SemLoc.dma cc0_scoped1.sem, (default : HIx 1)) (insert (SemLoc.dma cc0_scratch2.sem, (default : HIx 1))
      (insert (SemLoc.dma cc0_scoped0.sem, (default : HIx 1)) W'))); isplitr
    · ipureintro; intro p hp
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      · exact hW' p hp
    · iexact HO
  · unfold inv
    isplitl [Hmw]; · iexact Hmw
    isplitl [Hi]; · iexact Hi
    isplitl [Ht]; · iexact Ht
    isplitr
    · rw [show outRows (base L) (base L + 128 * 0) = ∅ from by ext y; simp [mem_outRows], pointsTo_empty]; iempintro
    isplitl [Ho]; · iexact Ho
    isplitl [Hs]; · iexists _; iexact Hs
    isplitl [Hr]; · iexists _; iexact Hr
    isplitl [HsemI]; · iexact HsemI
    isplitl [HsemG]; · iexact HsemG
    isplitl [HsemO]; · iexact HsemO
    iexists W; isplitr
    · ipureintro; exact fun p hp => .inl hp
    · iexact HO
  iintro %_ HI
  unfold inv
  icases HI with ⟨-, -, -, Hdone, -, ⟨%fs', Hs⟩, ⟨%fr', Hr⟩, HsemI, HsemG, HsemO, %W', %hW', HO⟩
  sl_exec
  sl_step
  have htr : Scf.trips k0_t1_loop.lb k0_t1_loop.ub k0_t1_loop.st = 800 := by decide
  rw [htr, show 128 * 800 = 102400 from rfl]
  isplitl [Hdone]; · iexact Hdone
  isplitl [Hs Hr Hbufs]
  · isplitl [Hs]; · iexists _; iexact Hs
    isplitl [Hr]; · iexists _; iexact Hr
    iexact Hbufs
  isplitl [HsemG HsemI HsemO Hsems]
  · isplitl [HsemG]; · iexact HsemG
    isplitl [HsemI]; · iexact HsemI
    isplitl [HsemO]; · iexact HsemO
    iexact Hsems
  iexists W'; isplitr
  · ipureintro; exact hW'
  · iexact HO

end Tile

end Cert.Proof.IdealLookup

end
-- ==== Proof.IdealLaunch.lean ====
/-
  The lookup kernel's launch, at the ideal instance's printed program but for any float instance.  The host reshapes the
  [16384, 200] index array into a list of 3276800 words; the call hands every vector subcore a read share of that list and
  of the table and the 102400 rows of the flat result that worker 2 s + c owns; the subcores' tasks leave those rows at the
  looked-up rows; the host reshapes the [3276800, 128] result to [16384, 200, 128].  The run ends with both arguments as
  they were and the result at that reshape of the looked-up rows.
-/
import proofs.«217804_g22402549416331_cont_8to1_114_2_alg».proof.Proof.IdealBody

noncomputable section

namespace Cert.Proof.IdealLookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-- The index array and the result, as locations of device `d`. -/
abbrev aLoc (d : Dev nD) : Loc nD τ sig := (SparseCore.T d).loc main_arg0
abbrev rLoc (d : Dev nD) : Loc nD τ sig := (SparseCore.T d).loc main_v2

/-- The index list: the index array in row-major order; the flat looked-up rows; their [16384, 200, 128] view. -/
def fI (d : Dev nD) : Buf (Elt F) (iLoc d) := shapeCast S3276800 (m (aLoc d)) shapeCasts_S16384x200_S3276800
def fG (d : Dev nD) : Buf (Elt F) (oLoc d) := Cert.Lookup.flatRows (fI m d) (m (tLoc d))
def fR (d : Dev nD) : Buf (Elt F) (rLoc d) := shapeCast S16384x200x128 (fG m d) shapeCasts_S3276800x128_S16384x200x128

/-- What the proof asks of the launch memory: every index word lies in `[0, 999]` as a signed word. -/
def PreOK : Prop := ∀ (d : Dev nD) (p : S16384x200.Idx), 0 ≤ (m (aLoc d) p).toInt ∧ (m (aLoc d) p).toInt ≤ 999

theorem fI_range (hpre : PreOK m) (d : Dev nD) (j : (iLoc d).ty.Idx) : 0 ≤ (fI m d j).toInt ∧ (fI m d j).toInt ≤ 999 := by
  unfold fI shapeCast; exact hpre d _

/-! ## Shares and rows -/

/-- SparseCore `c`'s read share, and subcore `i`'s of it. -/
abbrev qC (c : ℕ) : PosShare TreeShare := Transfers.shareTokN fullShare c
abbrev qT (c i : ℕ) : PosShare TreeShare := Transfers.shareTokN (qC c) i

/-- Worker `2 i + c`'s first row, and its rows. -/
def tbase (c i : ℕ) : ℕ := 204800 * i + 102400 * c
abbrev tileRows (c i : ℕ) : Finset S3276800x128.Idx := outRows (tbase c i) (tbase c i + 102400)

theorem tileRows_disjoint {c c' i i' : ℕ} (hc : c < 2) (hc' : c' < 2) (h : c ≠ c' ∨ i ≠ i') : Disjoint (tileRows c i) (tileRows c' i') := by
  refine Finset.disjoint_left.mpr fun y h1 h2 => ?_
  rw [mem_outRows] at h1 h2; unfold tbase at h1 h2
  omega

theorem tileRows_cover : (Finset.univ : Finset S3276800x128.Idx)
    = (Finset.univ : Finset (Fin 2)).biUnion fun c => (Finset.univ : Finset (Fin 16)).biUnion fun i => tileRows c.val i.val := by
  ext y
  simp only [Finset.mem_univ, Finset.mem_biUnion, true_and, mem_outRows, true_iff]
  have hy : (y 0).val < 3276800 := (y 0).isLt
  refine ⟨⟨((y 0).val / 102400) % 2, by omega⟩, ⟨(y 0).val / 204800, by omega⟩, ?_⟩
  show tbase (((y 0).val / 102400) % 2) ((y 0).val / 204800) ≤ (y 0).val
    ∧ (y 0).val < tbase (((y 0).val / 102400) % 2) ((y 0).val / 204800) + 102400
  unfold tbase
  constructor <;> omega

omit m in
/-- The flat result, whole, is the workers' rows. -/
theorem out_split (d : Dev nD) (f : Buf (Elt F) (oLoc d)) :
    (oLoc d ↦{fullShare} f : sProp 𝕄)
      = bigSep Finset.univ fun c : Fin 2 => bigSep Finset.univ fun i : Fin 16 => oLoc d ↦[tileRows c.val i.val]{fullShare} f := by
  show (oLoc d ↦[(Finset.univ : Finset S3276800x128.Idx)]{fullShare} f : sProp 𝕄) = _
  rw [tileRows_cover, pointsTo_biUnion (ℓ := oLoc d) Finset.univ
    (fun c : Fin 2 => (Finset.univ : Finset (Fin 16)).biUnion fun i => tileRows c.val i.val) ?d1]
  · refine bigSep_congr fun c _ => ?_
    exact pointsTo_biUnion (ℓ := oLoc d) Finset.univ (fun i : Fin 16 => tileRows c.val i.val)
      fun i _ i' _ h => tileRows_disjoint c.isLt c.isLt (.inr fun e => h (Fin.ext e))
  case d1 =>
    intro c _ c' _ h
    refine (Finset.disjoint_biUnion_left _ _ _).mpr fun i _ => (Finset.disjoint_biUnion_right _ _ _).mpr fun i' _ => ?_
    exact tileRows_disjoint c.isLt c'.isLt (.inl fun e => h (Fin.ext e))

variable [FloatOps F]

/-! ## What the handshakes carry -/

def P : (K (F := F)).Pay (nD := nD) (Val := Elt F) (Name := ℕ) (U := UU) where
  st := fun _ d c => iprop((iLoc d ↦{qC c.val} fI m d) ∗ (tLoc d ↦{qC c.val} m (tLoc d))
      ∗ bigSep Finset.univ fun i : Fin 16 => oLoc d ↦[tileRows c.val i.val]{fullShare} m (oLoc d))
  dn := fun _ d c => bigSep Finset.univ fun i : Fin 16 => oLoc d ↦[tileRows c.val i.val]{fullShare} fG m d
  go := fun _ d c i => iprop((iLoc d ↦{qT c.val i.val} fI m d) ∗ (tLoc d ↦{qT c.val i.val} m (tLoc d))
      ∗ oLoc d ↦[tileRows c.val i.val]{fullShare} m (oLoc d))
  td := fun _ d c i => oLoc d ↦[tileRows c.val i.val]{fullShare} fG m d
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__emb_gather (coordsV c s)
          iV (Memref.isWhole_whole _) tV (Memref.isWhole_whole _) oV (Memref.isWhole_whole _)
          sI (Memref.isWhole_whole _) sR (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF (fI m d) (m (tLoc d)) (m (oLoc d)) (fI_range m hpre d) (qT c.val i.val) (qT c.val i.val) O W hO).trans
    (wp_mono frame _ _ fun _ => obl_post)

theorem vecSplit : (K (F := F)).VecSplit' (P m) 0 := by
  intro d c
  show iprop((iLoc d ↦{qC c.val} fI m d) ∗ (tLoc d ↦{qC c.val} m (tLoc d))
        ∗ bigSep Finset.univ fun i : Fin 16 => oLoc d ↦[tileRows c.val i.val]{fullShare} m (oLoc d))
      ⊢ |={Set.univ}=> iprop(
        (bigSep Finset.univ fun i : Fin 16 => iprop((iLoc d ↦{qT c.val i.val} fI m d) ∗ (tLoc d ↦{qT c.val i.val} m (tLoc d))
          ∗ oLoc d ↦[tileRows c.val i.val]{fullShare} m (oLoc d)))
        ∗ ((bigSep Finset.univ fun i : Fin 16 => oLoc d ↦[tileRows c.val i.val]{fullShare} fG m d)
            -∗ bigSep Finset.univ fun i : Fin 16 => oLoc d ↦[tileRows c.val i.val]{fullShare} fG m d))
  rw [bigSep_sep', bigSep_sep']
  iintro ⟨Hi, Ht, Ho⟩
  ihave Hi' := (Transfers.pointsTo_toks_split (qC c.val) 16) $$ Hi
  icases Hi' with ⟨-, Hi⟩
  ihave Ht' := (Transfers.pointsTo_toks_split (qC c.val) 16) $$ Ht
  icases Ht' with ⟨-, Ht⟩
  imodintro
  isplitl [Hi Ht Ho]
  · isplitl [Hi]; · iexact Hi
    isplitl [Ht]; · iexact Ht
    iexact Ho
  iintro H; iexact H

/-! ## The launch element: the handshakes' rounds; the kernel keeps no ghost state of its own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a' : DevRef τ sig := Proc.devRef .tc (main_arg0 : Ref sig .tc)
abbrev t' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev r' : DevRef τ sig := Proc.devRef .tc (main_v2 : Ref sig .tc)
/-- The two host reshapes. -/
abbrev op1 : HloOp τ sig (Elt F) := StableHlo.reshape main_arg0 main_v0 rfl shapeCasts_S16384x200_S3276800
abbrev op2 : HloOp τ sig (Elt F) := StableHlo.reshape main_v1 main_v2 rfl shapeCasts_S3276800x128_S16384x200x128
abbrev S1 : Finset (DevRef τ sig) := {a', i'}
abbrev S2 : Finset (DevRef τ sig) := {o', r'}

omit [FloatOps F] in
theorem held_S1 (d : Dev nD) (W : Valuation τ sig (Elt F)) :
    (held (T d) S1 W : sProp 𝕄) = iprop((aLoc d ↦{fullShare} W a') ∗ iLoc d ↦{fullShare} W i') := by
  unfold held S1
  rw [SparseCore.bigSep_insert' (by decide), bigSep_singleton]
omit [FloatOps F] in
theorem held_S2 (d : Dev nD) (W : Valuation τ sig (Elt F)) :
    (held (T d) S2 W : sProp 𝕄) = iprop((oLoc d ↦{fullShare} W o') ∗ rLoc d ↦{fullShare} W r') := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (tLoc d ↦{fullShare} W main_arg1)
      ∗ (iLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; before the second reshape, the flat result at the looked-up rows. -/
def V0 (d : Dev nD) : Valuation τ sig (Elt F) := fun b => m (d, b)
def V2 (d : Dev nD) : Valuation τ sig (Elt F) := Function.update (V0 m d) o' (fG m d)

theorem V2_o (d : Dev nD) : V2 m d o' = fG m d := Function.update_self _ _ _
theorem V2_r (d : Dev nD) : V2 m d r' = m (rLoc d) := Function.update_of_ne (show r' ≠ o' by decide) _ _

theorem op1_a (d : Dev nD) : (op1 (F := F)).result (V0 m d) a' = m (aLoc d) :=
  (op1 (F := F)).result_of_not_mem (V0 m d) (b := a') (show a' ∉ ({i'} : Finset (DevRef τ sig)) by decide)
theorem op1_i (d : Dev nD) : (op1 (F := F)).result (V0 m d) i' = fI m d :=
  StableHlo.reshape_result main_arg0 main_v0 rfl shapeCasts_S16384x200_S3276800 _ _ (V0 m d)
theorem op2_r (d : Dev nD) : (op2 (F := F)).result (V2 m d) r' = fR m d := by
  refine (StableHlo.reshape_result main_v1 main_v2 rfl shapeCasts_S3276800x128_S16384x200x128 _ _ (V2 m d)).trans ?_
  show (fun i => shapeCast S16384x200x128 (V2 m d o') shapeCasts_S3276800x128_S16384x200x128 i) = _
  rw [V2_o]; rfl

theorem st0_eq (d : Dev nD) : (bigSep Finset.univ fun c : Fin ((K (F := F)).nCore 0) => (P m).st 0 d c)
    = iprop((bigSep Finset.univ fun c : Fin 2 => iLoc d ↦{qC c.val} fI m d) ∗ (bigSep Finset.univ fun c : Fin 2 => tLoc d ↦{qC c.val} m (tLoc d))
      ∗ bigSep Finset.univ fun c : Fin 2 => bigSep Finset.univ fun i : Fin 16 => oLoc d ↦[tileRows c.val i.val]{fullShare} m (oLoc d)) := by
  show (bigSep (Finset.univ : Finset (Fin 2)) fun c => iprop((iLoc d ↦{qC c.val} fI m d) ∗ (tLoc d ↦{qC c.val} m (tLoc d))
      ∗ bigSep Finset.univ fun i : Fin 16 => oLoc d ↦[tileRows c.val i.val]{fullShare} m (oLoc d))) = _
  rw [bigSep_sep', bigSep_sep']
theorem dn0_eq (d : Dev nD) : (bigSep Finset.univ fun c : Fin ((K (F := F)).nCore 0) => (P m).dn 0 d c) = (oLoc d ↦{fullShare} fG m d : sProp 𝕄) :=
  (out_split (F := F) d (fG m d)).symm

/-- What @main leaves the claim: both arguments at their launch contents, the result at the view of the looked-up rows. -/
abbrev FIN (d : Dev nD) : sProp 𝕄 :=
  iprop((aLoc d ↦{fullShare} m (aLoc d)) ∗ (tLoc d ↦{Transfers.shareDrop fullShare 2} m (tLoc d)) ∗ rLoc d ↦{fullShare} fR m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Ht, Hi, Ho, Hr⟩, -, -⟩, -⟩
  -- the index array read as a list
  iapply (wp_hlo_within 𝒱 (SparseCore.T d) none Set.univ (op := op1) (S := S1) (Finset.Subset.refl _) (V := V0 m d)) $$ [Hb Ha Hi]
  · isplitl [Hb]; · iexact Hb
    rw [held_S1]
    isplitl [Ha]; · iexact Ha
    iexact Hi
  iintro ⟨Hb, Hheld⟩
  ihave Hh := (Entails.of_eq (held_S1 (F := F) d _)) $$ Hheld
  rw [op1_a, op1_i]
  icases Hh with ⟨Ha, Hi⟩
  rw [wp_ret]; imodintro
  -- a read share of the list and of the table for each SparseCore; the flat result by workers
  ihave Hi2 := (Transfers.pointsTo_toks_split fullShare 2) $$ Hi
  icases Hi2 with ⟨-, Hi⟩
  ihave Ht2 := (Transfers.pointsTo_toks_split fullShare 2) $$ Ht
  icases Ht2 with ⟨Htk, Ht⟩
  ihave Ho2 := (Entails.of_eq (out_split (F := F) d _)) $$ Ho
  iapply ((K (F := F)).wp_run (D (F := F)) 𝒱 (EH := EH) (P := P m) κ d 0) $$ [Hst Hi Ht Ho2 Hb Ha Htk Hr]
  isplitr; · iexact Hctx
  isplitl [Hst]; · iexact Hst
  isplitl [Hi Ht Ho2]
  · rw [st0_eq]
    isplitl [Hi]; · iexact Hi
    isplitl [Ht]; · iexact Ht
    iexact Ho2
  iintro ⟨Hst, Hdn⟩
  ihave Ho := (Entails.of_eq (dn0_eq m d)) $$ Hdn
  -- the flat result viewed [16384, 200, 128]
  iapply (wp_hlo_within 𝒱 (SparseCore.T d) none Set.univ (op := op2) (S := S2) (Finset.Subset.refl _) (V := V2 m d)) $$ [Hb Ho Hr]
  · isplitl [Hb]; · iexact Hb
    rw [held_S2, V2_o, V2_r]
    isplitl [Ho]; · iexact Ho
    iexact Hr
  iintro ⟨Hb, Hheld⟩
  ihave Hh := (Entails.of_eq (held_S2 (F := F) d _)) $$ Hheld
  rw [op2_r]
  icases Hh with ⟨-, Hr⟩
  rw [wp_ret]; imodintro; imodintro
  isplitl [Hst]; · iexact Hst
  isplitl [Ha]; · iexact Ha
  isplitl [Htk]; · iexact Htk
  iexact Hr

def fq (d : Dev nD) (s' : Phys nD τ sig (Elt F)) : Prop :=
  s'.mem.mem (aLoc d) = m (aLoc d) ∧ s'.mem.mem (tLoc d) = m (tLoc d) ∧ s'.mem.mem (rLoc d) = fR m d

theorem hfin (d : Dev nD) (s' : Phys nD τ sig (Elt F)) : iprop(FIN m d ∗ SI s') ⊢ (⌜fq m d s'⌝ : sProp 𝕄) := by
  iintro ⟨⟨Ha, Ht, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := tLoc d) (I := Finset.univ) (q := Transfers.shareDrop fullShare 2) (f := m (tLoc d)))) $$ [HSI Ht]
  · isplitl [HSI] <;> iassumption
  icases H with ⟨%h2, HSI, -⟩
  ihave H := (SI_pointsTo_agree (st := s') (ℓ := rLoc d) (I := Finset.univ) (q := fullShare) (f := fR m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- The run's post: the result at the view of the looked-up rows, both arguments as they were. -/
def QC : PUnit × MemSt nD τ sig (Elt F) → Prop := fun r => ∀ c : Dev nD,
  r.2.mem (rLoc c) = fR m c ∧ r.2.mem (aLoc c) = m (aLoc c) ∧ r.2.mem (tLoc c) = m (tLoc c)

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h c => ⟨(h c).2.2, (h c).1, (h c).2.1⟩)

end Cert.Proof.IdealLookup

end
-- ==== Proof.LibGatherRows.lean ====
/-
  A row gather read at an index.  What `W[idx]` of a table `W : [N, D]` at an integer array `idx : [R, C]` lowers to
  is a gather with offset axis [2], collapsed slice axis [0], start index map [0], slice sizes [1, D] and the index
  vector on axis 2, over the indices as `[R, C, 1]`.  Result element (r, c, e) is entry e of the table's row at the
  start index `idx[r, c, 0]`, read as a signed integer and clamped into [0, N − 1].
-/
import Idealize.ShloMosaic.Lib.ValueIdx

namespace Cert.GatherRows

open Idealize.ShloMosaic Idealize.ShloMosaic.ValueIdx

variable {α : Type}

/-- Those dimension numbers for a table `[N, D]`, start indices `[R, C, 1]` and result `[R, C, D]`. -/
abbrev rowDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- A rank-3 index's coordinates are below the literal extents, written as the extents themselves. -/
theorem idx3_lt0 {R C D : Nat} (y : (⟨3, ![R, C, D]⟩ : Shape).Idx) : (y 0).val < R := (y 0).isLt
theorem idx3_lt1 {R C D : Nat} (y : (⟨3, ![R, C, D]⟩ : Shape).Idx) : (y 1).val < C := (y 1).isLt
theorem idx3_lt2 {R C D : Nat} (y : (⟨3, ![R, C, D]⟩ : Shape).Idx) : (y 2).val < D := (y 2).isLt

/-- The start-indices index `[r, c, 0]` of result index `(r, c, e)`. -/
abbrev rowIdx {R C D : Nat} (y : (⟨3, ![R, C, D]⟩ : Shape).Idx) : (⟨3, ![R, C, 1]⟩ : Shape).Idx :=
  fun a => match a with
    | ⟨0, _⟩ => ⟨(y 0).val, idx3_lt0 y⟩
    | ⟨1, _⟩ => ⟨(y 1).val, idx3_lt1 y⟩
    | ⟨2, _⟩ => ⟨0, Nat.one_pos⟩

/-- The row gather read at `(r, c, e)`: entry `e` of the table's row at the start index `idx[r, c, 0]`, read signed
    and clamped into `[0, N − 1]`. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (y : (⟨3, ![R, C, D]⟩ : Shape).Idx) :
    Host.gather (rowDims N D R C wf) x idx y
      = x (ix2 (n0 := N) (n1 := D) ⟨min (idx (rowIdx y)).toInt.toNat (N - 1), by omega⟩ ⟨(y 2).val, idx3_lt2 y⟩) := by
  unfold Host.gather
  congr 1
  funext a
  refine Fin.ext ?_
  match a with
  | ⟨0, _⟩ =>
    show (rowDims N D R C wf).start y idx 0 + (rowDims N D R C wf).batchCoord y 0 + (rowDims N D R C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R C wf).startIndexMap from List.mem_singleton.mpr rfl)]
    have hsi : (rowDims N D R C wf).siIdx y ⟨List.idxOf (0 : Fin 2) (rowDims N D R C wf).startIndexMap,
        List.idxOf_lt_length_iff.2 (List.mem_singleton.mpr rfl)⟩ = rowIdx y := by
      funext b; refine Fin.ext ?_
      match b with
      | ⟨0, _⟩ => rfl
      | ⟨1, _⟩ => rfl
      | ⟨2, _⟩ => rfl
    rw [hsi]
    rfl
  | ⟨1, _⟩ =>
    show (rowDims N D R C wf).start y idx 1 + (rowDims N D R C wf).batchCoord y 1 + (rowDims N D R C wf).offCoord y 1 = _
    rw [GatherDims.batchCoord_eq_zero _ _ _ List.not_mem_nil]
    have hs : (rowDims N D R C wf).start y idx 1 = 0 := by
      unfold GatherDims.start
      rw [dif_neg (show ¬ ((1 : Fin 2) ∈ ([0] : List (Fin 2))) from by decide)]
    have hk : (1 : Fin 2) ∈ (rowDims N D R C wf).sKept :=
      (GatherDims.mem_sKept _ _).mpr ⟨(show ¬ ((1 : Fin 2) ∈ ([0] : List (Fin 2))) from by decide), List.not_mem_nil⟩
    rw [hs]
    simp only [Nat.zero_add]
    unfold GatherDims.offCoord
    rw [dif_pos hk]
    rfl

end Cert.GatherRows
-- ==== Proof.LibReduceOnes.lean ====
/-
  An "all" that comes out true.  A reduction by `and` over one-bit words, started from 1, is 1 when every element it
  meets is 1: the converse of reading a true "all" back into its elements.
-/
import Idealize.ShloMosaic.Lib.ReduceAll

namespace Cert.ReduceOnes

open Idealize.ShloMosaic

/-- A left fold by `and` from 1 over one-bit words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have h11 : IntOp.andi (1#1 : BitVec 1) 1#1 = 1#1 := by decide
    rw [List.foldl_cons, hf a, h11]
    exact foldl_andi_ones f hf l

/-- A reduce by `and` whose initial value is 1 and whose operand is 1 everywhere is 1 at every result index. -/
theorem reduce_andi_ones {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_ones x hx _

end Cert.ReduceOnes
-- ==== Proof.PreRange.lean ====
/-
  The index half of the input domain, read back.  The domain predicate is the conjunction of two all-reductions; the
  second one says that every index word w satisfies 0 ≤ w and w ≤ 999, both read signed.  This file extracts that
  statement for every position of the index array, at any float instance (the index half never looks at a float).
-/
import proofs.«217804_g22402549416331_cont_8to1_114_2_alg».proof.Pre_input_domain
import proofs.«217804_g22402549416331_cont_8to1_114_2_alg».proof.Proof.Gen.Pre_input_domain
import Idealize.ShloMosaic.Lib.ReduceAll
import Idealize.ShloMosaic.Lib.ValueIdx

namespace Cert.Lookup

open Idealize.ShloMosaic

/-- The scalar shape has exactly one index. -/
instance subsingleton_scalar_idx : Subsingleton Cert.Pre_input_domain.S_.Idx := ⟨fun _ _ => funext fun d => d.elim0⟩

/-- Under the input domain every index word, read signed, lies in `[0, 999]`. -/
theorem idx_range {F : FTy → Type} [FloatOps F] (a0 : IVec Cert.Pre_input_domain.S16384x200 32)
    (a1 : FVec F Cert.Pre_input_domain.S1000x128 .f32)
    (h : Cert.Pre_input_domain.fn (F := F) a0 a1 = fun _ => 1#1) :
    ∀ p, 0 ≤ (a0 p).toInt ∧ (a0 p).toInt ≤ 999 := by
  intro p
  have h0 := congrFun h ValueIdx.ix0
  dsimp only [Cert.Pre_input_domain.fn] at h0
  -- the conjunction of the two all-reductions: keep the second
  have h9 := (IntOp.andi_eq_one.1 h0).2
  -- an all-reduction that is one saw a one at every position
  have hp := Host.reduce_andi_all _ _ _ _ _ h9 p
  -- the word at p is the conjunction of the two comparisons
  obtain ⟨hge, hle⟩ := IntOp.andi_eq_one.1 hp
  refine ⟨?_, ?_⟩
  · -- the broadcast constant at p is the word 0
    have hc : (0#32 : BitVec 32).toInt ≤ (a0 p).toInt := IntOp.cmpi_sge.1 hge
    have hz : (0#32 : BitVec 32).toInt = 0 := by decide
    omega
  · -- the broadcast constant at p is the word 999
    have hc : (a0 p).toInt ≤ (999#32 : BitVec 32).toInt := IntOp.cmpi_sle.1 hle
    have hz : (999#32 : BitVec 32).toInt = 999 := by decide
    omega

end Cert.Lookup
-- ==== Proof.RefRun.lean ====
/-
  The reference program's run, read back.  Its entry point is one call of the lookup function, whose body makes one
  further call (a select); with both bodies written out at their call sites the program is a straight line of 23 host
  operations over the buffers the two call records name.  Every execution of that line terminates with the result
  buffer at the operations' composed term of the two argument arrays, `refOut idx tbl` below, and both arguments
  unchanged.  Stated at any float instance.
-/
import proofs.«217804_g22402549416331_cont_8to1_114_2_alg».proof.Proof.Gen.ReferenceIdeal
import Idealize.ShloMosaic.Lib.StableHlo.Run

noncomputable section

namespace Cert.Lookup.Ref

open Cert.ReferenceIdeal Cert.ReferenceIdeal.Gen Idealize.ShloMosaic Idealize.ShloMosaic.TcCoe Idealize.SL.Sem
  Idealize.ShloMosaic.StableHlo

variable {F : FTy → Type} [FloatOps F]

/-- The index words with the negative ones wrapped: `w + 1000` where `w < 0`, else `w`. -/
def wrapped (idx : IVec S16384x200 32) : IVec S16384x200 32 :=
  select (cmpi .slt idx (broadcastInDim S16384x200 ![] bcast_S_S16384x200 (constantI S_ 32 0#32)))
    (addi idx (broadcastInDim S16384x200 ![] bcast_S_S16384x200 (constantI S_ 32 1000#32))) idx

/-- The wrapped words as the gather's index array: one start index per position, a trailing axis of size one. -/
def starts (idx : IVec S16384x200 32) : IVec S16384x200x1 32 :=
  broadcastInDim S16384x200x1 ![0, 1] bcast_S16384x200_S16384x200x1_0_1 (wrapped idx)

/-- Per position, whether the start index lies in `[0, 999]`: the two comparisons, and-reduced over the unit axis. -/
def inRange (idx : IVec S16384x200 32) : IVec S16384x200 1 :=
  Host.reduce IntOp.andi
    (andi (cmpi .sge (starts idx) (broadcastInDim S16384x200x1 ![] bcast_S_S16384x200x1 (constantI S_ 32 0#32)))
      (cmpi .sle (starts idx) (broadcastInDim S16384x200x1 ![0, 1, 2] bcast_S1x1x1_S16384x200x1_0_1_2
        (broadcastInDim S1x1x1 ![2] bcast_S1_S1x1x1_2 (constantI S1 32 999#32)))))
    (constantI S_ 1 1#1) reducesTo_S16384x200x1_S16384x200_d2 h_S_

/-- The reference's result as a function of its two arguments: the gathered rows where the start index is in range,
    the fill constant elsewhere. -/
def refOut (idx : IVec S16384x200 32) (tbl : FVec F S1000x128 .f32) : FVec F S16384x200x128 .f32 :=
  select (broadcastInDim S16384x200x128 ![0, 1] bcast_S16384x200_S16384x200x128_0_1 (inRange idx))
    (Host.gather gather_S1000x128_S16384x200x1_S16384x200x128_2_0_n_n_0_2_1128 tbl (starts idx))
    (broadcastInDim S16384x200x128 ![] bcast_S_S16384x200x128 (constant S_ .f32 0x7FC00000#32))

/-- The program's 23 operations in order, the two calls written out at their sites: the lookup's six operations up to
    its call, the callee's select into the call's own buffer, and the lookup's remaining sixteen. -/
abbrev ops : List (HloOp τ sig (Elt F)) :=
  [ TRef.nullary main_call0.c (constantI S_ 32 0#32),
    TRef.unary main_call0.c main_call0.v0 (broadcastInDim S16384x200 ![] bcast_S_S16384x200),
    TRef.binary (.of main_arg0) main_call0.v0 main_call0.v1 (cmpi .slt),
    TRef.nullary main_call0.c_0 (constantI S_ 32 1000#32),
    TRef.unary main_call0.c_0 main_call0.v2 (broadcastInDim S16384x200 ![] bcast_S_S16384x200),
    TRef.binary (.of main_arg0) main_call0.v2 main_call0.v3 addi,
    TRef.ternary main_call0.v1 main_call0.v3 (.of main_arg0) main_call0.call0.v0 select,
    TRef.unary main_call0.call0.v0 main_call0.v5 (broadcastInDim S16384x200x1 ![0, 1] bcast_S16384x200_S16384x200x1_0_1),
    TRef.nullary main_call0.c_1 (constantI S1 32 999#32),
    TRef.nullary main_call0.c_2 (constantI S_ 32 0#32),
    TRef.unary main_call0.c_2 main_call0.v6 (broadcastInDim S16384x200x1 ![] bcast_S_S16384x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x200x1 ![0, 1, 2] bcast_S1x1x1_S16384x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12
      (fun x v => Host.reduce IntOp.andi x v reducesTo_S16384x200x1_S16384x200_d2 h_S_),
    TRef.binary (.of main_arg1) main_call0.v5 main_call0.v13
      (fun x i => Host.gather gather_S1000x128_S16384x200x1_S16384x200x128_2_0_n_n_0_2_1128 x i),
    TRef.unary main_call0.v12 main_call0.v14 (broadcastInDim S16384x200x128 ![0, 1] bcast_S16384x200_S16384x200x128_0_1),
    TRef.nullary main_call0.cst (constant S_ .f32 0x7FC00000#32),
    TRef.unary main_call0.cst main_call0.v15 (broadcastInDim S16384x200x128 ![] bcast_S_S16384x200x128),
    TRef.ternary main_call0.v14 main_call0.v13 main_call0.v15 main_call0.v16 select ]

set_option maxRecDepth 1024 in
/-- The entry point is that straight line: the two bodies unfolded at their calls, the sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- Moving contents to a typed reference's buffer type and back is the identity. -/
theorem ofBuf_toBuf {T : BufTy} {Val : EltTy → Type} (y : TRef sig T) (v : T.Contents Val) : y.ofBuf (y.toBuf v) = v := by
  obtain ⟨r, rfl, _, _⟩ := y
  rfl

set_option maxRecDepth 8192 in
/-- The fold at the result buffer is `refOut` of the two arguments' contents: each operation's result at its own buffer
    is its function's value and at any other buffer what was there; a typed reference's two transports cancel, and at a
    literal reference each is the identity. -/
theorem out_eq (V : Valuation τ sig (Elt F)) :
    after ops V (main_v0 : DevRef τ sig) = refOut (V (main_arg0 : DevRef τ sig)) (V (main_arg1 : DevRef τ sig)) := by
  after_results_simp
  simp only [ofBuf_toBuf]
  have h0 : (TRef.of main_arg0 : TRef sig ⟨S16384x200, .i32⟩).ofBuf (Val := Elt F) (V (main_arg0 : DevRef τ sig))
      = V (main_arg0 : DevRef τ sig) := rfl
  have h1 : (TRef.of main_arg1 : TRef sig ⟨S1000x128, .f32⟩).ofBuf (Val := Elt F) (V (main_arg1 : DevRef τ sig))
      = V (main_arg1 : DevRef τ sig) := rfl
  simp only [h0, h1]
  unfold refOut inRange starts wrapped
  exact cast_eq _ _

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

/-- On every device, for any float values, from any memory with zero counters: every weakly fair execution of the
    entry point terminates with the result at `refOut` of the arguments and the arguments unchanged. -/
theorem run_ops (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0)
          = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _),
      (h c main_arg0).trans (arg0_eq _),
      (h c main_arg1).trans (arg1_eq _)⟩)
    (run_seq scopedRefs_eq scopedSems_eq defs main (fun _ => ops) main_eq (fun _ => ops_sub) m ρ)

end Cert.Lookup.Ref

end
-- ==== Proof.RefValue.lean ====
/-
  The reference's value under the input domain.  Every index word lies in [0, 999], so wrapping negative words changes
  nothing, every start index passes the range test, the mask is one everywhere, and the select keeps the gathered entry:
  result entry (r, c, e) is entry e of the table's row numbered idx[r, c].  With the run of the 23 operations this
  gives the reference's run with its result stated as the lookup specification.
-/
import proofs.«217804_g22402549416331_cont_8to1_114_2_alg».proof.Defs
import proofs.«217804_g22402549416331_cont_8to1_114_2_alg».proof.Proof.Gen.ReferenceIdeal
import proofs.«217804_g22402549416331_cont_8to1_114_2_alg».proof.Proof.Gen.Pre_input_domain
import proofs.«217804_g22402549416331_cont_8to1_114_2_alg».proof.Proof.Spec
import proofs.«217804_g22402549416331_cont_8to1_114_2_alg».proof.Proof.LibGatherRows
import proofs.«217804_g22402549416331_cont_8to1_114_2_alg».proof.Proof.LibReduceOnes
import proofs.«217804_g22402549416331_cont_8to1_114_2_alg».proof.Proof.PreRange
import proofs.«217804_g22402549416331_cont_8to1_114_2_alg».proof.Proof.RefRun
import Idealize.ShloMosaic.Lib.ValueIdx
import Idealize.ShloMosaic.Lib.Pipeline.Value

noncomputable section

namespace Cert.Lookup.Ref

open Cert.ReferenceIdeal Cert.ReferenceIdeal.Gen Idealize.ShloMosaic Idealize.ShloMosaic.ValueIdx Idealize.SL.Sem

variable {F : FTy → Type} [FloatOps F]

/-- A select reads its first branch wherever the condition word is one. -/
theorem select_apply_of_one {α : Type} {s : Shape} (c : IVec s 1) (a b : s.Idx → α) (i : s.Idx) (h : c i = 1#1) :
    select c a b i = a i := if_pos h

/-- A word in `[0, 999]` is not negative, so the wrap keeps it. -/
theorem wrapped_apply (idx : IVec S16384x200 32) (hr : ∀ p, 0 ≤ (idx p).toInt ∧ (idx p).toInt ≤ 999)
    (p : S16384x200.Idx) : wrapped idx p = idx p := by
  have hz : (0#32 : BitVec 32).toInt = 0 := by decide
  have hn : ¬ IntOp.cmpi .slt (idx p) (0#32) = 1#1 := by
    rw [IntOp.cmpi_slt, hz]; have := (hr p).1; omega
  show Scalar.select (IntOp.cmpi .slt (idx p) (0#32)) _ (idx p) = idx p
  exact if_neg hn

/-- The start index at `(r, c, 0)` is the wrapped word at `(r, c)`. -/
theorem starts_apply (idx : IVec S16384x200 32) (q : S16384x200x1.Idx) :
    starts idx q = wrapped idx (ix2 (n0 := 16384) (n1 := 200) ⟨(q 0).val, (q 0).isLt⟩ ⟨(q 1).val, (q 1).isLt⟩) := by
  unfold starts
  exact broadcastInDim_apply _ _ _ q _ (fun a => match a with | ⟨0, _⟩ => rfl | ⟨1, _⟩ => rfl)

/-- Under the domain every start index is a word of the index array, hence in `[0, 999]`. -/
theorem starts_range (idx : IVec S16384x200 32) (hr : ∀ p, 0 ≤ (idx p).toInt ∧ (idx p).toInt ≤ 999)
    (q : S16384x200x1.Idx) : 0 ≤ (starts idx q).toInt ∧ (starts idx q).toInt ≤ 999 := by
  rw [starts_apply, wrapped_apply idx hr]; exact hr _

/-- Under the domain the range test passes at every position. -/
theorem inRange_eq_one (idx : IVec S16384x200 32) (hr : ∀ p, 0 ≤ (idx p).toInt ∧ (idx p).toInt ≤ 999)
    (p : S16384x200.Idx) : inRange idx p = 1#1 := by
  unfold inRange
  refine Cert.ReduceOnes.reduce_andi_ones _ _ _ _ p rfl (fun i => ?_)
  have hz : (0#32 : BitVec 32).toInt = 0 := by decide
  have hm : (999#32 : BitVec 32).toInt = 999 := by decide
  obtain ⟨h0, h1⟩ := starts_range idx hr i
  -- at i the two broadcast constants are the words 0 and 999
  show IntOp.andi (IntOp.cmpi .sge (starts idx i) (0#32)) (IntOp.cmpi .sle (starts idx i) (999#32)) = 1#1
  exact IntOp.andi_eq_one.2 ⟨IntOp.cmpi_sge.2 (by rw [hz]; exact h0), IntOp.cmpi_sle.2 (by rw [hm]; exact h1)⟩

/-- Under the domain the reference's composed term is the lookup specification. -/
theorem refOut_eq_rowsOf (idx : IVec S16384x200 32) (tbl : FVec F S1000x128 .f32)
    (hr : ∀ p, 0 ≤ (idx p).toInt ∧ (idx p).toInt ≤ 999) : refOut idx tbl = Cert.Lookup.rowsOf idx tbl := by
  funext y
  -- the mask at y is one: the select keeps the gathered entry
  have hmask : broadcastInDim S16384x200x128 ![0, 1] bcast_S16384x200_S16384x200x128_0_1 (inRange idx) y = 1#1 := by
    unfold broadcastInDim
    exact inRange_eq_one idx hr _
  have hsel : refOut idx tbl y = Host.gather gather_S1000x128_S16384x200x1_S16384x200x128_2_0_n_n_0_2_1128 tbl (starts idx) y := by
    unfold refOut
    exact select_apply_of_one _ _ _ y hmask
  -- the gather at y reads the row at the start index (r, c, 0), which is the word idx[r, c]
  have hg : Host.gather gather_S1000x128_S16384x200x1_S16384x200x128_2_0_n_n_0_2_1128 tbl (starts idx) y
      = tbl (ix2 (n0 := 1000) (n1 := 128)
          ⟨min (starts idx (Cert.GatherRows.rowIdx y)).toInt.toNat (1000 - 1), by omega⟩
          ⟨(y 2).val, Cert.GatherRows.idx3_lt2 y⟩) :=
    Cert.GatherRows.gather_rows_apply (N := 1000) (D := 128) (R := 16384) (C := 200) (by omega)
      gather_S1000x128_S16384x200x1_S16384x200x128_2_0_n_n_0_2_1128_wf tbl (starts idx) y
  have hs : starts idx (Cert.GatherRows.rowIdx y)
      = idx (ix2 (n0 := 16384) (n1 := 200) ⟨(y 0).val, idx3_lt0 y⟩ ⟨(y 1).val, idx3_lt1 y⟩) := by
    rw [starts_apply, wrapped_apply idx hr]
  -- so the clamped row number is the specification's
  have hrow : (⟨min (starts idx (Cert.GatherRows.rowIdx y)).toInt.toNat (1000 - 1), by omega⟩ : Fin 1000)
      = Cert.Lookup.rowOf (idx (ix2 (n0 := 16384) (n1 := 200) ⟨(y 0).val, idx3_lt0 y⟩ ⟨(y 1).val, idx3_lt1 y⟩)) :=
    Fin.ext (congrArg (fun w : BitVec 32 => min w.toInt.toNat 999) hs)
  rw [hsel, hg, hrow]
  rfl

/-- The reference's run with its result stated as the lookup specification: under the input domain every weakly fair
    execution terminates with the result buffer at the looked-up rows and both arguments unchanged. -/
theorem run (m : (ℓ : Loc Cert.ReferenceIdeal.nD Cert.ReferenceIdeal.τ Cert.ReferenceIdeal.sig) → Buf (Elt Ideal) ℓ)
    (g : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_v0)
            = Cert.Lookup.rowsOf
                (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) :=
  (θ_run _ _ _).mono (fun _ h c => ⟨(h c).1.trans (refOut_eq_rowsOf _ _
      (Cert.Lookup.idx_range (F := Ideal) _ _ (hpre c))), (h c).2⟩)
    (run_ops (F := Ideal) m g)

end Cert.Lookup.Ref

end
-- ==== Proof.FlatValue.lean ====
/-
  The flat lookup viewed in three axes is the lookup.  Flatten the [16384, 200] index array row-major into a list of
  3276800 words, look up row n of a [3276800, 128] array from word n, and view that array as [16384, 200, 128]:
  entry (r, c, e) of the view is flat entry (200 r + c, e), and word 200 r + c of the list is idx[r, c].
-/
import Idealize.ShloMosaic.Lib.ValueIdx
import Idealize.ShloMosaic.Lib.Pipeline.Value
import proofs.«217804_g22402549416331_cont_8to1_114_2_alg».proof.Proof.Spec
import proofs.«217804_g22402549416331_cont_8to1_114_2_alg».proof.Proof.FlatSpec

namespace Cert.Lookup

open Idealize.ShloMosaic Idealize.ShloMosaic.ValueIdx

/-- The row-major position of `(r, c)` in a `[16384, 200]` array is below the flat length. -/
theorem flat_pos_lt (y : (⟨3, ![16384, 200, 128]⟩ : Shape).Idx) : (y 0).val * 200 + (y 1).val < 3276800 := by
  have h0 := idx3_lt0 y
  have h1 := idx3_lt1 y
  omega

/-- The flat lookup over the flattened indices, viewed as `[16384, 200, 128]`, is the looked-up rows. -/
theorem shapeCast_flatRows {α : Type} (idx : IVec ⟨2, ![16384, 200]⟩ 32) (tbl : (⟨2, ![1000, 128]⟩ : Shape).Idx → α)
    (h1 : (⟨2, ![16384, 200]⟩ : Shape).ShapeCasts ⟨1, ![3276800]⟩)
    (h2 : (⟨2, ![3276800, 128]⟩ : Shape).ShapeCasts ⟨3, ![16384, 200, 128]⟩) :
    shapeCast ⟨3, ![16384, 200, 128]⟩ (flatRows (shapeCast ⟨1, ![3276800]⟩ idx h1) tbl) h2 = rowsOf idx tbl := by
  funext y
  -- entry (r, c, e) of the view is flat entry (200 r + c, e): both sit at position (200 r + c) · 128 + e
  have houter : shapeCast ⟨3, ![16384, 200, 128]⟩ (flatRows (shapeCast ⟨1, ![3276800]⟩ idx h1) tbl) h2 y
      = flatRows (shapeCast ⟨1, ![3276800]⟩ idx h1) tbl
          (ix2 (n0 := 3276800) (n1 := 128) ⟨(y 0).val * 200 + (y 1).val, flat_pos_lt y⟩ ⟨(y 2).val, idx3_lt2 y⟩) :=
    shapeCast_apply _ h2 y _ (by
      rw [Shape.rowMajor_val_two, Shape.rowMajor_val_three]
      show ((y 0).val * 200 + (y 1).val) * 128 + (y 2).val = ((y 0).val * 200 + (y 1).val) * 128 + (y 2).val
      rfl)
  -- word 200 r + c of the flattened list is idx[r, c]: both sit at position 200 r + c
  have hinner : shapeCast ⟨1, ![3276800]⟩ idx h1 (ix1 (n := 3276800) ⟨(y 0).val * 200 + (y 1).val, flat_pos_lt y⟩)
      = idx (ix2 (n0 := 16384) (n1 := 200) ⟨(y 0).val, idx3_lt0 y⟩ ⟨(y 1).val, idx3_lt1 y⟩) :=
    shapeCast_apply idx h1 _ _ (by
      rw [Shape.rowMajor_val_two, Shape.rowMajor_val_one]
      show (y 0).val * 200 + (y 1).val = (y 0).val * 200 + (y 1).val
      rfl)
  rw [houter]
  show tbl (ix2 (n0 := 1000) (n1 := 128)
      (rowOf (shapeCast ⟨1, ![3276800]⟩ idx h1 (ix1 (n := 3276800) ⟨(y 0).val * 200 + (y 1).val, flat_pos_lt y⟩)))
      ⟨(y 2).val, idx3_lt2 y⟩) = _
  rw [hinner]
  rfl

end Cert.Lookup
-- ==== Proof.lean ====
/-
  The lookup kernel against jnp.take.  Both programs compute, from an index array idx : [16384, 200] of words in [0, 999]
  and a table tbl : [1000, 128], the array whose entry (r, c, e) is tbl[idx[r, c], e] (Spec.lean's rowsOf).

  The kernel flattens idx row-major into a list of 3276800 words; each of the 32 vector subcores owns 102400 consecutive
  rows of a flat [3276800, 128] result and fills them 128 rows at a time (copy 128 words in, gather the table rows they
  name, copy the 128 rows out, each copy waited for before the next starts); the flat result is then viewed as
  [16384, 200, 128].  Flat row 200 r + c is the row of word 200 r + c of the list, which is idx[r, c]: the view of the flat
  lookup is rowsOf (FlatValue.lean).  The word-level program and the idealized one are the same text, so one proof of the
  run, generic in the float instance, gives both their frames and, at the ideal instance, the kernel's value.

  The reference wraps negative words, masks words outside [0, 999] and gathers at the clamped word; on words in [0, 999]
  the wrap and the clamp do nothing and the mask is all ones, so its result is rowsOf as well (RefValue.lean).  The range
  of the words is the precondition's second conjunct (PreRange.lean); the first, that the table is finite, is not needed:
  the lookup moves entries and computes nothing with them.
-/
import proofs.«217804_g22402549416331_cont_8to1_114_2_alg».proof.Defs
import proofs.«217804_g22402549416331_cont_8to1_114_2_alg».proof.Proof.Gen.Kernel
import proofs.«217804_g22402549416331_cont_8to1_114_2_alg».proof.Proof.Gen.Kernel.Skeleton
import proofs.«217804_g22402549416331_cont_8to1_114_2_alg».proof.Proof.Gen.KernelIdeal
import proofs.«217804_g22402549416331_cont_8to1_114_2_alg».proof.Proof.Gen.KernelIdeal.Skeleton
import proofs.«217804_g22402549416331_cont_8to1_114_2_alg».proof.Proof.Gen.ReferenceIdeal
import proofs.«217804_g22402549416331_cont_8to1_114_2_alg».proof.Proof.Gen.Pre_input_domain
import Idealize.ShloMosaic.Adequacy
import Idealize.ShloMosaic.Init
import proofs.«217804_g22402549416331_cont_8to1_114_2_alg».proof.Proof.BitsLaunch
import proofs.«217804_g22402549416331_cont_8to1_114_2_alg».proof.Proof.IdealLaunch
import proofs.«217804_g22402549416331_cont_8to1_114_2_alg».proof.Proof.RefValue
import proofs.«217804_g22402549416331_cont_8to1_114_2_alg».proof.Proof.FlatValue

noncomputable section

namespace Cert.Proof

open Idealize.ShloMosaic Idealize.SL.Sem

/-- The precondition puts every index word in [0, 999], at either instance. -/
theorem ok_bits (m : (ℓ : Loc Cert.Kernel.nD Cert.Kernel.τ Cert.Kernel.sig) → Buf (Elt Bits) ℓ) (h : Cert.Pre_Kernel m) :
    BitsLookup.PreOK (F := Bits) m :=
  fun d p => Cert.Lookup.idx_range (F := Bits) _ _ (h d) p
theorem ok_ideal (m : (ℓ : Loc Cert.KernelIdeal.nD Cert.KernelIdeal.τ Cert.KernelIdeal.sig) → Buf (Elt Ideal) ℓ) (h : Cert.Pre_KernelIdeal m) :
    IdealLookup.PreOK (F := Ideal) m :=
  fun d p => Cert.Lookup.idx_range (F := Ideal) _ _ (h d) p

theorem frame_k : Cert.frame_Kernel := fun m ρ hpre =>
  (θ_run Cert.Kernel.defs _ _).mono (fun _ h c => ⟨(h c).2.1, (h c).2.2⟩) (BitsLookup.run_main (F := Bits) m ρ (ok_bits m hpre))

theorem frame_ki : Cert.frame_KernelIdeal := fun m ρ hpre =>
  (θ_run Cert.KernelIdeal.defs _ _).mono (fun _ h c => ⟨(h c).2.1, (h c).2.2⟩) (IdealLookup.run_main (F := Ideal) m ρ (ok_ideal m hpre))

theorem frame_ri : Cert.frame_ReferenceIdeal := fun m ρ hpre =>
  (θ_run Cert.ReferenceIdeal.defs _ _).mono (fun _ h c => (h c).2) (Cert.Lookup.Ref.run m ρ hpre)

/-- The kernel's result, the [16384, 200, 128] view of the flat lookup over the flattened index array, is the lookup. -/
theorem result_eq (m : (ℓ : Loc Cert.KernelIdeal.nD Cert.KernelIdeal.τ Cert.KernelIdeal.sig) → Buf (Elt Ideal) ℓ) (c : Dev Cert.KernelIdeal.nD) :
    IdealLookup.fR (F := Ideal) m c = Cert.Lookup.rowsOf (m (IdealLookup.aLoc c)) (m (IdealLookup.tLoc c)) :=
  Cert.Lookup.shapeCast_flatRows _ _ _ _

theorem algebraic : Cert.algebraic_KernelIdeal_ReferenceIdeal := by
  intro m ρ m' ρ' hpre hagree
  refine ⟨fun c => Cert.Lookup.rowsOf (m (IdealLookup.aLoc c)) (m (IdealLookup.tLoc c)), ?_, ?_⟩
  · exact (θ_run Cert.KernelIdeal.defs _ _).mono (fun _ h c => ⟨(h c).1.trans (result_eq m c), (h c).2.1, (h c).2.2⟩)
      (IdealLookup.run_main (F := Ideal) m ρ (ok_ideal m hpre))
  · have hpre' : Cert.Pre_ReferenceIdeal m' := fun c => by
      have h := hpre c
      rw [← (hagree c).1, ← (hagree c).2] at h
      exact h
    refine (θ_run Cert.ReferenceIdeal.defs _ _).mono (fun _ h c => ⟨?_, (h c).2.1, (h c).2.2⟩) (Cert.Lookup.Ref.run m' ρ' hpre')
    rw [(h c).1, (hagree c).1, (hagree c).2]

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
